-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S10000x256 .f32) (main_arg1 : FVec F S10000x10000 .f32) (main_arg2 : FVec F S10000x10000 .f32) (main_arg3 : FVec F S256x256 .f32) (main_arg4 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S40x10000 : Shape := ⟨2, ![40, 10000]⟩
abbrev S200x256 : Shape := ⟨2, ![200, 256]⟩
abbrev S40x256 : Shape := ⟨2, ![40, 256]⟩

abbrev nBuf : Space → Nat
  | .hbm => 7
  | .vmem => 26
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S10000x10000, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S1x256, .f32⟩
  | .local _ .vmem, ⟨3, _⟩ => ⟨S40x10000, .f32⟩
  | .local _ .vmem, ⟨4, _⟩ => ⟨S40x10000, .f32⟩
  | .local _ .vmem, ⟨5, _⟩ => ⟨S40x10000, .f32⟩
  | .local _ .vmem, ⟨6, _⟩ => ⟨S40x10000, .f32⟩
  | .local _ .vmem, ⟨7, _⟩ => ⟨S40x10000, .f32⟩
  | .local _ .vmem, ⟨8, _⟩ => ⟨S40x10000, .f32⟩
  | .local _ .vmem, ⟨9, _⟩ => ⟨S40x10000, .f32⟩
  | .local _ .vmem, ⟨10, _⟩ => ⟨S40x10000, .f32⟩
  | .local _ .vmem, ⟨11, _⟩ => ⟨S40x10000, .f32⟩
  | .local _ .vmem, ⟨12, _⟩ => ⟨S40x10000, .f32⟩
  | .local _ .vmem, ⟨13, _⟩ => ⟨S40x10000, .f32⟩
  | .local _ .vmem, ⟨14, _⟩ => ⟨S40x10000, .f32⟩
  | .local _ .vmem, ⟨15, _⟩ => ⟨S40x10000, .f32⟩
  | .local _ .vmem, ⟨16, _⟩ => ⟨S40x10000, .f32⟩
  | .local _ .vmem, ⟨17, _⟩ => ⟨S40x10000, .f32⟩
  | .local _ .vmem, ⟨18, _⟩ => ⟨S40x10000, .f32⟩
  | .local _ .vmem, ⟨19, _⟩ => ⟨S40x10000, .f32⟩
  | .local _ .vmem, ⟨20, _⟩ => ⟨S40x10000, .f32⟩
  | .local _ .vmem, ⟨21, _⟩ => ⟨S40x10000, .f32⟩
  | .local _ .vmem, ⟨22, _⟩ => ⟨S40x10000, .f32⟩
  | .local _ .vmem, ⟨23, _⟩ => ⟨S200x256, .f32⟩
  | .local _ .vmem, ⟨24, _⟩ => ⟨S200x256, .f32⟩
  | .local _ .vmem, ⟨25, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S40x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S40x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S40x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S40x10000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S40x10000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S40x10000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S40x10000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S40x10000 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S40x10000 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S200x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S40x10000_S40x10000_0_0 : ∀ a, (![0, 0] : Fin 2 → Nat) a + S40x10000.size a ≤ S40x10000.size a
  h_S40x10000 : 0 < S40x10000.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S40x256 : S1x256.Broadcasts S40x256
  inb_S200x256_S40x256_0_0 : ∀ a, (![0, 0] : Fin 2 → Nat) a + S40x256.size a ≤ S200x256.size a
  h_S40x256 : 0 < S40x256.numel
  inb_S200x256_S40x256_40_0 : ∀ a, (![40, 0] : Fin 2 → Nat) a + S40x256.size a ≤ S200x256.size a
  inb_S200x256_S40x256_80_0 : ∀ a, (![80, 0] : Fin 2 → Nat) a + S40x256.size a ≤ S200x256.size a
  inb_S200x256_S40x256_120_0 : ∀ a, (![120, 0] : Fin 2 → Nat) a + S40x256.size a ≤ S200x256.size a
  inb_S200x256_S40x256_160_0 : ∀ a, (![160, 0] : Fin 2 → Nat) a + S40x256.size a ≤ S200x256.size a
  dot_S10000x256_S256x256_S10000x256_1_0_0_1_n_n_wf : DotDims.WF S10000x256 S256x256 S10000x256 [1] [0] [0] [1] [] []
  dot_S40x10000_S10000x256_S40x256_1_0_0_1_n_n_wf : DotDims.WF S40x10000 S10000x256 S40x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x10000.size a ≤ S10000x10000.size a
  hwx0_3 : ∀ i : grid0.Coords, EltTy.bits .f32 = 32 ∨ (Rect.block (s := S10000x10000) S40x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S40x10000.size a ≤ S10000x10000.size a
  hwx0_4 : ∀ i : grid0.Coords, EltTy.bits .f32 = 32 ∨ (Rect.block (s := S10000x10000) S40x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S40x10000.size a ≤ S10000x10000.size a
  hwx0_5 : ∀ i : grid0.Coords, EltTy.bits .f32 = 32 ∨ (Rect.block (s := S10000x10000) S40x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S40x10000.size a ≤ S10000x10000.size a
  hwx0_6 : ∀ i : grid0.Coords, EltTy.bits .f32 = 32 ∨ (Rect.block (s := S10000x10000) S40x10000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S40x10000.size a ≤ S10000x10000.size a
  hwx0_7 : ∀ i : grid0.Coords, EltTy.bits .f32 = 32 ∨ (Rect.block (s := S10000x10000) S40x10000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S40x10000.size a ≤ S10000x10000.size a
  hwx0_8 : ∀ i : grid0.Coords, EltTy.bits .f32 = 32 ∨ (Rect.block (s := S10000x10000) S40x10000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S40x10000.size a ≤ S10000x10000.size a
  hwx0_9 : ∀ i : grid0.Coords, EltTy.bits .f32 = 32 ∨ (Rect.block (s := S10000x10000) S40x10000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S40x10000.size a ≤ S10000x10000.size a
  hwx0_10 : ∀ i : grid0.Coords, EltTy.bits .f32 = 32 ∨ (Rect.block (s := S10000x10000) S40x10000.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S40x10000.size a ≤ S10000x10000.size a
  hwx0_11 : ∀ i : grid0.Coords, EltTy.bits .f32 = 32 ∨ (Rect.block (s := S10000x10000) S40x10000.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S40x10000.size a ≤ S10000x10000.size a
  hwx0_12 : ∀ i : grid0.Coords, EltTy.bits .f32 = 32 ∨ (Rect.block (s := S10000x10000) S40x10000.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S200x256.size a ≤ S10000x256.size a
  hwx0_13 : ∀ i : grid0.Coords, EltTy.bits .f32 = 32 ∨ (Rect.block (s := S10000x256) S200x256.size (cc0_transform_13 i) (hinb0_13 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S40x10000_S10000x256_S40x256_1_0_0_1_n_n : DotDims S40x10000 S10000x256 S40x256 where
  lhsContracting := [1]
  rhsContracting := [0]
  lhsNonContracting := [0]
  rhsNonContracting := [1]
  lhsBatch := []
  rhsBatch := []
  wf := dot_S40x10000_S10000x256_S40x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S40x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S40x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S40x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S40x10000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S40x10000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S40x10000.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S40x10000.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg2) S40x10000.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg2) S40x10000.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg2) S40x10000.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v1) S200x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩

abbrev nBuf : Space → Nat
  | .hbm => 12
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S10000x10000, .f32⟩
  | .hbm, ⟨3, _⟩ => ⟨S256x256, .f32⟩
  | .hbm, ⟨4, _⟩ => ⟨S256, .f32⟩
  | .hbm, ⟨5, _⟩ => ⟨S10000x256, .f32⟩
  | .hbm, ⟨6, _⟩ => ⟨S10000x256, .f32⟩
  | .hbm, ⟨7, _⟩ => ⟨S10000x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.LibFrameShared.lean ====
/-
  The frame run of a one-region pipeline whose input windows may SHARE an array.

  A pipelined kernel handed one array through several input windows (each window reading its own blocks of it) is
  launched like any other kernel of its class, except for one thing: the array's buffer, held whole at the region's
  entry, has to be dealt among the windows that read it, each window taking a share of it.  The statement below is the
  frame run with a tracking invariant — the kernel may carry named contents in a scratch buffer from point to point —
  in which that dealing is a hypothesis (`hsplit`): the buffers behind the windows' arrays, each whole at the full
  share at the region-entry contents, entail the proof data's arrays at entry.  Everything else is as for distinct
  arrays: the scoped rest at some contents (the kernel's scratch: such a kernel draws no random numbers, so the generator register is let go) yields the
  data's invariant before the first point and gets it back after the last; the unscoped buffers that are no
  window's array bypass the region and are read back unchanged; every window's array ends at what the proof data
  compute for it.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}

namespace Pipeline

section FrameShared

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- The frame run with a tracking invariant for windows that may share arrays: as the frame run for distinct arrays,
    with the dealing of each shared array among its windows supplied as `hsplit`. -/
theorem θ_run_frame_track_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr [HU]
      · iempintro
      iexact HU)
    (hin := fun c => (show _ ⊢ (scopedRest (Ix := Unit) (Name := ℕ) (U := UR sig nD τ) (Lvl := ℕ) (Val := Val) (cfg).spec c : sProp 𝕄) by
        iintro ⟨-, Hr⟩; iexact Hr).trans (hin c))
    (hout := fun c => (hout c).trans (by
        iintro Hr
        isplitr [Hr]
        · iempintro
        iexact Hr))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end FrameShared

end Pipeline

end Idealize.ShloMosaic

end
-- ==== Proof.KernelFr.Runs.lean ====
/-
  What the two runs of the layer's kernel body share.

  The program is one line of host code (the bias row reshaped to a 1 × 256 matrix) and one pipelined region of 50 grid
  points.  At each point the body is handed thirteen input blocks — the whole vertex matrix, the whole weight matrix,
  the bias row, and five 40-row strips of each adjacency matrix (the two adjacency matrices are each read through
  five windows) — and one 200 × 256 output block; it also keeps a scratch buffer, the support `V · W`, which it fills at
  the first point and only reads afterwards.  Here: the contents of every buffer when the region is entered (`V`), each
  window's block at a point read off those contents (`iblk`), the body's one branch condition decided over the grid
  (it holds at point 0 only), the staging memrefs at a point, and the fact that an input window's staging buffer holds
  its block at every point.
-/
import proofs.«112502_g37555194037034_cont_8to1_b_1611_12_alg».proof.Proof.Gen.Kernel.Launch
import proofs.«112502_g37555194037034_cont_8to1_b_1611_12_alg».proof.Proof.Gen.Kernel.Skeleton
import proofs.«112502_g37555194037034_cont_8to1_b_1611_12_alg».proof.Proof.Gen.Kernel.Points
import Idealize.ShloMosaic.Lib.Pipeline.FrameBody
import Idealize.ShloMosaic.Lib.Ring
import Idealize.ShloMosaic.Lib.Tactic
import proofs.«112502_g37555194037034_cont_8to1_b_1611_12_alg».proof.Proof.LibFrameShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host operation before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line does not write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- The host line does not write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- The host line does not write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
/-- The host line does not write argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))
/-- The host line does not write argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof data
    whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the grid coordinate is zero. -/
abbrev cond0 (i : grid0.Coords) : Prop := (Scalar.cmpi .ne (Scalar.extui (Scalar.cmpi .eq (BitVec.ofNat 32 (i 0).val) 0#32)) 0#32) = 1#1
/-- It holds at point 0 only. -/
theorem hcond0 : ∀ t : Fin cfg0.N, cond0 (grid0.coords t) ↔ t.val % 50 = 0 :=
  (by decide +kernel : ∀ t : Fin grid0.N, cond0 (grid0.coords t) ↔ t.val % 50 = 0)

/-- No window is ever idle. -/
theorem liveAt : ∀ (w : Fin cfg0.W) (t : Fin cfg0.N), cfg0.idle w (grid0.coords t) = false := by decide +kernel

/-! ## The staging memrefs at a point -/

abbrev VO : View sig .tc .vmem S200x256 .f32 := (Memref.whole cc0_stg13_0 : Memref sig .tc .vmem S200x256 .f32).view
abbrev ms0 (t : Fin cfg0.N) : Memref sig .tc .vmem S10000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S40x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S40x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S40x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S40x10000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S40x10000 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S40x10000 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S40x10000 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S40x10000 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S40x10000 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S40x10000 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S200x256 .f32 := win0_13.stage (cfg0.slots t 13)
abbrev hs13 (t : Fin cfg0.N) : (ms13 t).IsWhole := hstage0_13 ((cfg0.slots t 13).cast nbuf0_13)
/-- The scratch buffer that holds the support. -/
abbrev scM : Memref sig .tc .vmem S10000x256 .bf16 := Memref.whole cc0_scratch0
abbrev VS : View sig .tc .vmem S10000x256 .bf16 := scM.view

/-- The scoped rest is the scratch buffer, owned at some contents. -/
theorem scopedRest_eq' (c : Dev nD) :
    (Pipeline.scopedRest (Ix := Unit) (Name := ℕ) (U := UR sig nD τ) (Lvl := ℕ) (Val := Elt F) spec0 c : sProp 𝕄)
      = iprop((∃ d, owns (c : Thread nD τ) scM fullShare d)) := by
  rw [scopedRest0_eq]; simp only [scM, owns_whole]; try rfl

end Cert.Kernel.Fr

end
-- ==== Proof.KernelFr.RunA.lean ====
/-
  The kernel body run at the first grid point, where its conditional is taken: it computes the support `V · W` from the
  vertex and weight blocks and stores it whole into the scratch buffer, then for each of the five 40-row strips adds the
  two adjacency strips, multiplies by the support just stored and adds the bias, storing the 40 × 256 result into its
  place in the output block.  The run finds the pieces the stores leave in the output block and in the scratch buffer.
-/
import proofs.«112502_g37555194037034_cont_8to1_b_1611_12_alg».proof.Proof.KernelFr.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first point's stores leave in the output block and in the scratch buffer, with the proof that the
    body, handed the thirteen input blocks at their contents, the output block and the scratch at anything, runs to
    the end holding the inputs as they were and the two written buffers with those pieces written. -/
noncomputable def kernelRunA (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i)
    (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) :
    Σ' (L13 : List (View.Piece (Elt F) S200x256 .f32)), { LS : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS)) -∗ K ⟨⟩))
          ⊢ wp frame (wpE (defs₀ (F := F)) Variants.none c none) E (cc0__gc_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__gc_kernel_eq_skeleton]; unfold cc0__gc_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexact H13
    iexists _; iexact HS

end Cert.Kernel.Fr

end
-- ==== Proof.KernelFr.RunB.lean ====
/-
  The kernel body run at a later grid point, where its conditional is not taken: the scratch buffer holds what the
  point before left there and is only read; for each of the five 40-row strips the body adds the two adjacency strips,
  multiplies by the scratch's contents and adds the bias, storing the 40 × 256 result into its place in the output
  block.  The run finds the pieces the stores leave in the output block.
-/
import proofs.«112502_g37555194037034_cont_8to1_b_1611_12_alg».proof.Proof.KernelFr.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces a later point's stores leave in the output block, with the proof that the body, handed the thirteen
    input blocks and the scratch at their contents and the output block at anything, runs to the end holding the inputs
    and the scratch as they were and the output block with those pieces written. -/
noncomputable def kernelRunB (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : ¬cond0 i)
    (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) (xs : Vec F S10000x256 .bf16) :
    { L13 : List (View.Piece (Elt F) S200x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ owns (c : Thread nD τ) arg15 fullShare xs) -∗ K ⟨⟩))
          ⊢ wp frame (wpE (defs₀ (F := F)) Variants.none c none) E (cc0__gc_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__gc_kernel_eq_skeleton]; unfold cc0__gc_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexact H13
    iexists _; isplitr; · ipureintro; exact harg15.read_unread _
    iexact HS

end Cert.Kernel.Fr

end
-- ==== Proof.KernelFr.Shares.lean ====
/-
  The shares at which the windows hold their arrays.  The two adjacency matrices are each read through five input
  windows; the full share of such an array is halved four times (the whole, its left half, its right half, and the right half's right half) into five parts — left-left, left-right, right-left,
  right-right-left, right-right-right — one per window.  A window that is alone on its array holds it whole.
-/
import proofs.«112502_g37555194037034_cont_8to1_b_1611_12_alg».proof.Proof.KernelFr.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's share of its array. -/
def qOf : Fin 14 → PosShare TreeShare := fun
  | 0 => fullShare | 1 => fullShare | 2 => fullShare
  | 3 => fullShare.left.left | 4 => fullShare.left.right | 5 => fullShare.right.left | 6 => fullShare.right.right.left | 7 => fullShare.right.right.right
  | 8 => fullShare.left.left | 9 => fullShare.left.right | 10 => fullShare.right.left | 11 => fullShare.right.right.left | 12 => fullShare.right.right.right
  | 13 => fullShare
  | ⟨_ + 14, h⟩ => absurd h (Nat.not_lt.2 (Nat.le_add_left _ _))

end Cert.Kernel.Fr

end
-- ==== Proof.KernelFr.Data.lean ====
/-
  The proof data of the layer's pipelined region.

  What the body's stores leave: at the first grid point, the output block and the scratch buffer as the first run's
  pieces read back; at a later point, the output block as the second run's pieces read back, the scratch untouched.
  The scratch therefore holds one thing from the first point on — what the first point stored, the support — and the
  region's invariant is: before the first point the scratch at anything, afterwards the scratch at that.  An input
  window's staging buffer holds the window's block after the body as before it.  The two adjacency matrices are each
  read through five windows, so each of the two arrays is dealt among its five windows: the full share is halved four times into five parts (three quarters and two eighths) and each window holds one part.
-/
import proofs.«112502_g37555194037034_cont_8to1_b_1611_12_alg».proof.Proof.KernelFr.RunB
import proofs.«112502_g37555194037034_cont_8to1_b_1611_12_alg».proof.Proof.KernelFr.Shares

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover what they are written into -/

theorem coverA_out (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) (y : S200x256.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).1 S40x256.size (by sl_kernel_rfl) y

theorem coverA_sc (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) (y : S10000x256.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).2.1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).2.1 S10000x256.size (by sl_kernel_rfl) y

theorem coverB_out (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : ¬cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) (xs : Vec F S10000x256 .bf16) (y : S200x256.Idx) :
    ∃ pc ∈ (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs).1, y ∈ pc.1.set :=
  View.cover_of_tiledL (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs).1 S40x256.size (by sl_kernel_rfl) y

/-- What the first point leaves in the output block: its pieces read back. -/
def outA (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) : Vec F S200x256 .f32 :=
  VO.read (Elt F) (VO.writes (Elt F) VO.junk (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).1)

/-- What the first point leaves in the scratch buffer: its pieces read back. -/
def scA (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) : Vec F S10000x256 .bf16 :=
  VS.read (Elt F) (VS.writes (Elt F) VS.junk (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).2.1)

/-- What a later point leaves in the output block, the scratch holding `xs`: its pieces read back. -/
def outB (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : ¬cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) (xs : Vec F S10000x256 .bf16) : Vec F S200x256 .f32 :=
  VO.read (Elt F) (VO.writes (Elt F) VO.junk (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs).1)

/-! ## Point by point -/

/-- The first grid point. -/
def t0 : Fin cfg0.N := ⟨0, lt_of_lt_of_eq (Nat.zero_lt_succ 49) N_0.symm⟩

/-- The scratch buffer's contents from the first point on: what the first point stored. -/
def sc0 (c : Dev nD) : Vec F S10000x256 .bf16 :=
  scA c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) (ms13 t0) (hs13 t0) scM (Memref.isWhole_whole _) ((hcond0 t0).mpr (Nat.zero_mod 50)) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0)

/-- The output block after the body at point `t`. -/
def outAt (c : Dev nD) (t : Fin cfg0.N) : Vec F S200x256 .f32 :=
  if h : t.val % 50 = 0 then outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) ((hcond0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  else outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) (fun hc => h ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (sc0 m c)

theorem outAt_A (c : Dev nD) (t : Fin cfg0.N) (h : t.val % 50 = 0) :
    outAt m c t = outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) ((hcond0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := dif_pos h
theorem outAt_B (c : Dev nD) (t : Fin cfg0.N) (h : ¬t.val % 50 = 0) :
    outAt m c t = outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) (fun hc => h ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (sc0 m c) := dif_neg h

/-- The region's invariant before position `n`: before the first point the scratch at anything; afterwards the scratch
    at what the first point stored. -/
def PhiS (c : Dev nD) (n : ℕ) : sProp 𝕄 :=
  if n = 0 then Pipeline.scopedRest (Ix := Unit) (Name := ℕ) (U := UR sig nD τ) (Lvl := ℕ) (Val := Elt F) spec0 c
  else owns (c : Thread nD τ) scM fullShare (sc0 m c)

theorem PhiS_zero (c : Dev nD) (n : ℕ) (hz : n = 0) :
    PhiS m c n = Pipeline.scopedRest (Ix := Unit) (Name := ℕ) (U := UR sig nD τ) (Lvl := ℕ) (Val := Elt F) spec0 c := if_pos hz
theorem PhiS_pos (c : Dev nD) (n : ℕ) (hz : n ≠ 0) : PhiS m c n = owns (c : Thread nD τ) scM fullShare (sc0 m c) := if_neg hz

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ t := PhiS m c t.val
  q w := qOf w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel
theorem liveAt8 : ∀ t : Fin cfg0.N, cfg0.idle 8 (grid0.coords t) = false := by decide +kernel
theorem liveAt9 : ∀ t : Fin cfg0.N, cfg0.idle 9 (grid0.coords t) = false := by decide +kernel
theorem liveAt10 : ∀ t : Fin cfg0.N, cfg0.idle 10 (grid0.coords t) = false := by decide +kernel
theorem liveAt11 : ∀ t : Fin cfg0.N, cfg0.idle 11 (grid0.coords t) = false := by decide +kernel
theorem liveAt12 : ∀ t : Fin cfg0.N, cfg0.idle 12 (grid0.coords t) = false := by decide +kernel
theorem liveAt13 : ∀ t : Fin cfg0.N, cfg0.idle 13 (grid0.coords t) = false := by decide +kernel

end Cert.Kernel.Fr

end
-- ==== Proof.KernelFr.Body.lean ====
/-
  The body obligation of the layer's region: at every grid point, from the invariant and every window's staging
  buffer at what the pipeline put there, the body runs to the invariant of the next point and every staging buffer at
  what the proof data say it leaves.  At the first point the first run applies (the scratch, at anything, is filled
  with the support); at a later point the second (the scratch, at the support, is read and handed on).
-/
import proofs.«112502_g37555194037034_cont_8to1_b_1611_12_alg».proof.Proof.KernelFr.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  rw [show (dats m 0 c).leavesExact 8 t = owns (c : Thread nD τ) (ms8 t) fullShare ((dats m 0 c).after 8 t) from by
    unfold Dat.leavesExact; rw [liveAt8 t], after8]
  rw [show (dats m 0 c).leavesExact 9 t = owns (c : Thread nD τ) (ms9 t) fullShare ((dats m 0 c).after 9 t) from by
    unfold Dat.leavesExact; rw [liveAt9 t], after9]
  rw [show (dats m 0 c).leavesExact 10 t = owns (c : Thread nD τ) (ms10 t) fullShare ((dats m 0 c).after 10 t) from by
    unfold Dat.leavesExact; rw [liveAt10 t], after10]
  rw [show (dats m 0 c).leavesExact 11 t = owns (c : Thread nD τ) (ms11 t) fullShare ((dats m 0 c).after 11 t) from by
    unfold Dat.leavesExact; rw [liveAt11 t], after11]
  rw [show (dats m 0 c).leavesExact 12 t = owns (c : Thread nD τ) (ms12 t) fullShare ((dats m 0 c).after 12 t) from by
    unfold Dat.leavesExact; rw [liveAt12 t], after12]
  rw [show (dats m 0 c).leavesExact 13 t = owns (c : Thread nD τ) (ms13 t) fullShare ((dats m 0 c).after 13 t) from by
    unfold Dat.leavesExact; rw [liveAt13 t], after13]
  have hN : t.val < 50 := lt_of_lt_of_eq t.isLt (show cfg0.N = 50 from N_0)
  by_cases h0 : t.val % 50 = 0
  · have hz : t.val = 0 := by omega
    rw [outAt_A m c t h0]
    unfold outA
    rw [PhiS_castSucc m c t, PhiS_zero m c _ hz, scopedRest_eq']
    obtain rfl : t = t0 := Fin.ext hz
    unfold sc0 scA
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRunA c (grid0.coords t0) _ _ _ _ _ _ _ _ _ _ _ _ _ _ _ _ _ _ _ _ _ _ _ _ _ _ _ _ _ _ ((hcond0 t0).mpr h0) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS]; · iexact HS
    iintro ⟨H0, H1, H2, H3, H4, H5, H6, H7, H8, H9, H10, H11, H12, ⟨%e13, H13⟩, ⟨%es, HS⟩⟩
    isplitl [HS]
    · unfold owns; iexists _; isplitr
      swap; · iexact HS
      ipureintro; exact View.read_writes_of_cover _ _ _ _ _ (coverA_sc c _ _ _ _ _ _ _ _ _ _ _ _ _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns; iexists _; isplitr
    swap; · iexact H13
    ipureintro; exact View.read_writes_of_cover _ _ _ _ _ (coverA_out c _ _ _ _ _ _ _ _ _ _ _ _ _ _ _ _ _ _ _ _ _ _ _ _ _ _ _ _ _ _ _ _ _ _ _ _ _ _ _ _ _ _ _ _ _)
  · have hz : t.val ≠ 0 := fun h => h0 (by rw [h])
    rw [outAt_B m c t h0]
    unfold outB
    rw [PhiS_castSucc m c t, PhiS_pos m c _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRunB c (grid0.coords t) _ _ _ _ _ _ _ _ _ _ _ _ _ _ _ _ _ _ _ _ _ _ _ _ _ _ _ _ _ _ (fun hc => h0 ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (sc0 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS]; · iexact HS
    iintro ⟨H0, H1, H2, H3, H4, H5, H6, H7, H8, H9, H10, H11, H12, ⟨%e13, H13⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns; iexists _; isplitr
    swap; · iexact H13
    ipureintro; exact View.read_writes_of_cover _ _ _ _ _ (coverB_out c _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.KernelFr.Split.lean ====
/-
  Dealing a shared array among the windows that read it.

  The two adjacency matrices are each read through five input windows.  At the region's entry each array's buffer is
  held whole at the full share; the pipeline wants every window to hold its own array at its own share.  The full share
  is halved four times (the whole, its left half, its right half, and the right half's right half) into five parts — left-left, left-right, right-left, right-right-left, right-right-right — and
  the points-to of the array splits along each halving, at the same contents; the other four windows are alone on their
  arrays and hold them at the full share.
-/
import proofs.«112502_g37555194037034_cont_8to1_b_1611_12_alg».proof.Proof.KernelFr.Runs
import proofs.«112502_g37555194037034_cont_8to1_b_1611_12_alg».proof.Proof.KernelFr.Shares

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's share under proof data whose inputs' shares are `qOf`: the one output window is alone on its
    array, where `qOf` is the full share too. -/
theorem share_of {c : Dev nD} (dat : Dat τ (Elt F) Unit ℕ (UR sig nD τ) ℕ cfg0 c) (hq : ∀ w, dat.q w = qOf w)
    (w : Fin 14) : dat.share w = qOf w := by
  unfold Dat.share
  rw [hq w]
  fin_cases w <;> rfl

/-- The dealing, for any contents `VV` of the buffers at the region's entry. -/
theorem hsplit_gen (c : Dev nD) (VV : (b : Ref sig .tc) → Buf (Elt F) ((c : Thread nD τ).loc b))
    (dat : Dat τ (Elt F) Unit ℕ (UR sig nD τ) ℕ cfg0 c)
    (hA : ∀ w, dat.A w = VV (Pipeline.arrRef spec0 w)) (hq : ∀ w, dat.q w = qOf w) :
    (Pipeline.arrBufs (Ix := Unit) (Name := ℕ) (U := UR sig nD τ) (Lvl := ℕ) spec0 c VV : sProp 𝕄)
      ⊢ dat.arrays (dat.arrAt · 0) := by
  classical
  have hR : dat.arrays (dat.arrAt · 0) = bigSep Finset.univ fun w : Fin 14 =>
      ((((c : Thread nD τ).loc (Pipeline.arrRef spec0 w)) ↦{qOf w} VV (Pipeline.arrRef spec0 w)) : sProp 𝕄) := by
    unfold Dat.arrays
    exact bigSep_congr fun w _ => by
      rw [(arr_whole0 w).set_eq_univ, share_of dat hq w]
      show (_ ↦{_} dat.A w) = _
      rw [hA w]
  have hL : (Pipeline.arrBufs (Ix := Unit) (Name := ℕ) (U := UR sig nD τ) (Lvl := ℕ) spec0 c VV : sProp 𝕄)
      = bigSepL [main_arg0, main_arg3, main_v0, main_arg1, main_arg2, main_v1]
          fun b => (((c : Thread nD τ).loc b) ↦{fullShare} VV b : sProp 𝕄) := by
    unfold Pipeline.arrBufs
    exact bigSep_eq_bigSepL_of_eq _ (by decide) (by decide) _
  rw [hL, hR, bigSep_W0]
  show iprop((((c : Thread nD τ).loc main_arg0) ↦{fullShare} VV main_arg0) ∗ (((c : Thread nD τ).loc main_arg3) ↦{fullShare} VV main_arg3) ∗ (((c : Thread nD τ).loc main_v0) ↦{fullShare} VV main_v0) ∗ (((c : Thread nD τ).loc main_arg1) ↦{fullShare} VV main_arg1) ∗ (((c : Thread nD τ).loc main_arg2) ↦{fullShare} VV main_arg2) ∗ (((c : Thread nD τ).loc main_v1) ↦{fullShare} VV main_v1))
    ⊢ iprop((((c : Thread nD τ).loc main_arg0) ↦{fullShare} VV main_arg0)
        ∗ (((c : Thread nD τ).loc main_arg3) ↦{fullShare} VV main_arg3)
        ∗ (((c : Thread nD τ).loc main_v0) ↦{fullShare} VV main_v0)
        ∗ (((c : Thread nD τ).loc main_arg1) ↦{fullShare.left.left} VV main_arg1)
        ∗ (((c : Thread nD τ).loc main_arg1) ↦{fullShare.left.right} VV main_arg1)
        ∗ (((c : Thread nD τ).loc main_arg1) ↦{fullShare.right.left} VV main_arg1)
        ∗ (((c : Thread nD τ).loc main_arg1) ↦{fullShare.right.right.left} VV main_arg1)
        ∗ (((c : Thread nD τ).loc main_arg1) ↦{fullShare.right.right.right} VV main_arg1)
        ∗ (((c : Thread nD τ).loc main_arg2) ↦{fullShare.left.left} VV main_arg2)
        ∗ (((c : Thread nD τ).loc main_arg2) ↦{fullShare.left.right} VV main_arg2)
        ∗ (((c : Thread nD τ).loc main_arg2) ↦{fullShare.right.left} VV main_arg2)
        ∗ (((c : Thread nD τ).loc main_arg2) ↦{fullShare.right.right.left} VV main_arg2)
        ∗ (((c : Thread nD τ).loc main_arg2) ↦{fullShare.right.right.right} VV main_arg2)
        ∗ (((c : Thread nD τ).loc main_v1) ↦{fullShare} VV main_v1))
  iintro ⟨H0, H3, Hv0, H1, H2, Hv1⟩
  ihave A1s := (pointsTo_share (PosShare.mem_left_op_right fullShare)).1 $$ H1
  icases A1s with ⟨A1l, A1r⟩
  ihave A1ls := (pointsTo_share (PosShare.mem_left_op_right fullShare.left)).1 $$ A1l
  icases A1ls with ⟨A1ll, A1lr⟩
  ihave A1rs := (pointsTo_share (PosShare.mem_left_op_right fullShare.right)).1 $$ A1r
  icases A1rs with ⟨A1rl, A1rr⟩
  ihave A1rrs := (pointsTo_share (PosShare.mem_left_op_right fullShare.right.right)).1 $$ A1rr
  icases A1rrs with ⟨A1rrl, A1rrr⟩
  ihave A2s := (pointsTo_share (PosShare.mem_left_op_right fullShare)).1 $$ H2
  icases A2s with ⟨A2l, A2r⟩
  ihave A2ls := (pointsTo_share (PosShare.mem_left_op_right fullShare.left)).1 $$ A2l
  icases A2ls with ⟨A2ll, A2lr⟩
  ihave A2rs := (pointsTo_share (PosShare.mem_left_op_right fullShare.right)).1 $$ A2r
  icases A2rs with ⟨A2rl, A2rr⟩
  ihave A2rrs := (pointsTo_share (PosShare.mem_left_op_right fullShare.right.right)).1 $$ A2rr
  icases A2rrs with ⟨A2rrl, A2rrr⟩
  isplitl [H0]; · iexact H0
  isplitl [H3]; · iexact H3
  isplitl [Hv0]; · iexact Hv0
  isplitl [A1ll]; · iexact A1ll
  isplitl [A1lr]; · iexact A1lr
  isplitl [A1rl]; · iexact A1rl
  isplitl [A1rrl]; · iexact A1rrl
  isplitl [A1rrr]; · iexact A1rrr
  isplitl [A2ll]; · iexact A2ll
  isplitl [A2lr]; · iexact A2lr
  isplitl [A2rl]; · iexact A2rl
  isplitl [A2rrl]; · iexact A2rrl
  isplitl [A2rrr]; · iexact A2rrr
  iexact Hv1

/-- The buffers behind the windows' arrays, each whole at the full share at the region-entry contents, yield every
    window its array at its share at those contents. -/
theorem hsplit_of (c : Dev nD) (dat : Dat τ (Elt F) Unit ℕ (UR sig nD τ) ℕ cfg0 c)
    (hA : ∀ w, dat.A w = V m c (Pipeline.arrRef spec0 w)) (hq : ∀ w, dat.q w = qOf w) :
    (Pipeline.arrBufs (Ix := Unit) (Name := ℕ) (U := UR sig nD τ) (Lvl := ℕ) spec0 c (V m c) : sProp 𝕄)
      ⊢ dat.arrays (dat.arrAt · 0) :=
  hsplit_gen c (V m c) dat hA hq

end Cert.Kernel.Fr

end
-- ==== Proof.KernelFr.Frame.lean ====
/-
  The frame of the layer's program: from any memory with zero counters every weakly fair execution of the host line
  and the pipelined region terminates, nothing faulting; every window's array ends at what the proof data compute for
  it — an input array at its contents at the region's entry — and the bias vector, which no window stages, is read back
  as it was.  So the five arguments end unchanged.
-/
import proofs.«112502_g37555194037034_cont_8to1_b_1611_12_alg».proof.Proof.KernelFr.Body
import proofs.«112502_g37555194037034_cont_8to1_b_1611_12_alg».proof.Proof.KernelFr.Split

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scoped rest (the scratch at anything) is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 from rfl, PhiS_zero m c 0 rfl]
  try exact Idealize.SL.BI.Entails.refl _

/-- After the last point the invariant gives the scoped rest back: what the scratch holds is forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 50 := N_0; omega), scopedRest_eq']
  iintro HS
  iexists _; iexact HS

/-- The arrays at the region's entry, dealt among the windows. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) :=
  hsplit_of m c (dats m 0 c) (A_eq m c) (fun _ => rfl)

set_option backward.isDefEq.respectTransparency.types false in
/-- The run: every array of the pipeline ends at what the library computes from the proof data, every other unscoped
    buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

/-- The frame: the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 8).trans (((dats m 0 c).arrAt_in 8 rfl _).trans ((A_eq m c 8).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c)⟩) (run_main m ρ)

end Cert.Kernel.Fr

end
-- ==== Proof.KernelIdealFr.Runs.lean ====
/-
  What the two runs of the layer's kernel body share.

  The program is one line of host code (the bias row reshaped to a 1 × 256 matrix) and one pipelined region of 50 grid
  points.  At each point the body is handed thirteen input blocks — the whole vertex matrix, the whole weight matrix,
  the bias row, and five 40-row strips of each adjacency matrix (the two adjacency matrices are each read through
  five windows) — and one 200 × 256 output block; it also keeps a scratch buffer, the support `V · W`, which it fills at
  the first point and only reads afterwards.  Here: the contents of every buffer when the region is entered (`V`), each
  window's block at a point read off those contents (`iblk`), the body's one branch condition decided over the grid
  (it holds at point 0 only), the staging memrefs at a point, and the fact that an input window's staging buffer holds
  its block at every point.
-/
import proofs.«112502_g37555194037034_cont_8to1_b_1611_12_alg».proof.Proof.Gen.KernelIdeal.Launch
import proofs.«112502_g37555194037034_cont_8to1_b_1611_12_alg».proof.Proof.Gen.KernelIdeal.Skeleton
import proofs.«112502_g37555194037034_cont_8to1_b_1611_12_alg».proof.Proof.Gen.KernelIdeal.Points
import Idealize.ShloMosaic.Lib.Pipeline.FrameBody
import Idealize.ShloMosaic.Lib.Ring
import Idealize.ShloMosaic.Lib.Tactic
import proofs.«112502_g37555194037034_cont_8to1_b_1611_12_alg».proof.Proof.LibFrameShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host operation before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line does not write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- The host line does not write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- The host line does not write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
/-- The host line does not write argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))
/-- The host line does not write argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof data
    whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the grid coordinate is zero. -/
abbrev cond0 (i : grid0.Coords) : Prop := (Scalar.cmpi .ne (Scalar.extui (Scalar.cmpi .eq (BitVec.ofNat 32 (i 0).val) 0#32)) 0#32) = 1#1
/-- It holds at point 0 only. -/
theorem hcond0 : ∀ t : Fin cfg0.N, cond0 (grid0.coords t) ↔ t.val % 50 = 0 :=
  (by decide +kernel : ∀ t : Fin grid0.N, cond0 (grid0.coords t) ↔ t.val % 50 = 0)

/-- No window is ever idle. -/
theorem liveAt : ∀ (w : Fin cfg0.W) (t : Fin cfg0.N), cfg0.idle w (grid0.coords t) = false := by decide +kernel

/-! ## The staging memrefs at a point -/

abbrev VO : View sig .tc .vmem S200x256 .f32 := (Memref.whole cc0_stg13_0 : Memref sig .tc .vmem S200x256 .f32).view
abbrev ms0 (t : Fin cfg0.N) : Memref sig .tc .vmem S10000x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S40x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S40x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S40x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S40x10000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S40x10000 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S40x10000 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S40x10000 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S40x10000 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S40x10000 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S40x10000 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S200x256 .f32 := win0_13.stage (cfg0.slots t 13)
abbrev hs13 (t : Fin cfg0.N) : (ms13 t).IsWhole := hstage0_13 ((cfg0.slots t 13).cast nbuf0_13)
/-- The scratch buffer that holds the support. -/
abbrev scM : Memref sig .tc .vmem S10000x256 .bf16 := Memref.whole cc0_scratch0
abbrev VS : View sig .tc .vmem S10000x256 .bf16 := scM.view

/-- The scoped rest is the scratch buffer, owned at some contents. -/
theorem scopedRest_eq' (c : Dev nD) :
    (Pipeline.scopedRest (Ix := Unit) (Name := ℕ) (U := UR sig nD τ) (Lvl := ℕ) (Val := Elt F) spec0 c : sProp 𝕄)
      = iprop((∃ d, owns (c : Thread nD τ) scM fullShare d)) := by
  rw [scopedRest0_eq]; simp only [scM, owns_whole]; try rfl

end Cert.KernelIdeal.Fr

end
-- ==== Proof.KernelIdealFr.RunA.lean ====
/-
  The kernel body run at the first grid point, where its conditional is taken: it computes the support `V · W` from the
  vertex and weight blocks and stores it whole into the scratch buffer, then for each of the five 40-row strips adds the
  two adjacency strips, multiplies by the support just stored and adds the bias, storing the 40 × 256 result into its
  place in the output block.  The run finds the pieces the stores leave in the output block and in the scratch buffer.
-/
import proofs.«112502_g37555194037034_cont_8to1_b_1611_12_alg».proof.Proof.KernelIdealFr.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first point's stores leave in the output block and in the scratch buffer, with the proof that the
    body, handed the thirteen input blocks at their contents, the output block and the scratch at anything, runs to
    the end holding the inputs as they were and the two written buffers with those pieces written. -/
noncomputable def kernelRunA (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i)
    (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) :
    Σ' (L13 : List (View.Piece (Elt F) S200x256 .f32)), { LS : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS)) -∗ K ⟨⟩))
          ⊢ wp frame (wpE (defs₀ (F := F)) Variants.none c none) E (cc0__gc_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__gc_kernel_eq_skeleton]; unfold cc0__gc_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexact H13
    iexists _; iexact HS

end Cert.KernelIdeal.Fr

end
-- ==== Proof.KernelIdealFr.RunB.lean ====
/-
  The kernel body run at a later grid point, where its conditional is not taken: the scratch buffer holds what the
  point before left there and is only read; for each of the five 40-row strips the body adds the two adjacency strips,
  multiplies by the scratch's contents and adds the bias, storing the 40 × 256 result into its place in the output
  block.  The run finds the pieces the stores leave in the output block.
-/
import proofs.«112502_g37555194037034_cont_8to1_b_1611_12_alg».proof.Proof.KernelIdealFr.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces a later point's stores leave in the output block, with the proof that the body, handed the thirteen
    input blocks and the scratch at their contents and the output block at anything, runs to the end holding the inputs
    and the scratch as they were and the output block with those pieces written. -/
noncomputable def kernelRunB (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : ¬cond0 i)
    (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) (xs : Vec F S10000x256 .bf16) :
    { L13 : List (View.Piece (Elt F) S200x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ owns (c : Thread nD τ) arg15 fullShare xs) -∗ K ⟨⟩))
          ⊢ wp frame (wpE (defs₀ (F := F)) Variants.none c none) E (cc0__gc_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__gc_kernel_eq_skeleton]; unfold cc0__gc_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexact H13
    iexists _; isplitr; · ipureintro; exact harg15.read_unread _
    iexact HS

end Cert.KernelIdeal.Fr

end
-- ==== Proof.KernelIdealFr.Shares.lean ====
/-
  The shares at which the windows hold their arrays.  The two adjacency matrices are each read through five input
  windows; the full share of such an array is halved four times (the whole, its left half, its right half, and the right half's right half) into five parts — left-left, left-right, right-left,
  right-right-left, right-right-right — one per window.  A window that is alone on its array holds it whole.
-/
import proofs.«112502_g37555194037034_cont_8to1_b_1611_12_alg».proof.Proof.KernelIdealFr.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's share of its array. -/
def qOf : Fin 14 → PosShare TreeShare := fun
  | 0 => fullShare | 1 => fullShare | 2 => fullShare
  | 3 => fullShare.left.left | 4 => fullShare.left.right | 5 => fullShare.right.left | 6 => fullShare.right.right.left | 7 => fullShare.right.right.right
  | 8 => fullShare.left.left | 9 => fullShare.left.right | 10 => fullShare.right.left | 11 => fullShare.right.right.left | 12 => fullShare.right.right.right
  | 13 => fullShare
  | ⟨_ + 14, h⟩ => absurd h (Nat.not_lt.2 (Nat.le_add_left _ _))

end Cert.KernelIdeal.Fr

end
-- ==== Proof.KernelIdealFr.Data.lean ====
/-
  The proof data of the layer's pipelined region.

  What the body's stores leave: at the first grid point, the output block and the scratch buffer as the first run's
  pieces read back; at a later point, the output block as the second run's pieces read back, the scratch untouched.
  The scratch therefore holds one thing from the first point on — what the first point stored, the support — and the
  region's invariant is: before the first point the scratch at anything, afterwards the scratch at that.  An input
  window's staging buffer holds the window's block after the body as before it.  The two adjacency matrices are each
  read through five windows, so each of the two arrays is dealt among its five windows: the full share is halved four times into five parts (three quarters and two eighths) and each window holds one part.
-/
import proofs.«112502_g37555194037034_cont_8to1_b_1611_12_alg».proof.Proof.KernelIdealFr.RunB
import proofs.«112502_g37555194037034_cont_8to1_b_1611_12_alg».proof.Proof.KernelIdealFr.Shares

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover what they are written into -/

theorem coverA_out (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) (y : S200x256.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).1 S40x256.size (by sl_kernel_rfl) y

theorem coverA_sc (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) (y : S10000x256.Idx) :
    ∃ pc ∈ (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).2.1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).2.1 S10000x256.size (by sl_kernel_rfl) y

theorem coverB_out (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : ¬cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) (xs : Vec F S10000x256 .bf16) (y : S200x256.Idx) :
    ∃ pc ∈ (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs).1, y ∈ pc.1.set :=
  View.cover_of_tiledL (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs).1 S40x256.size (by sl_kernel_rfl) y

/-- What the first point leaves in the output block: its pieces read back. -/
def outA (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) : Vec F S200x256 .f32 :=
  VO.read (Elt F) (VO.writes (Elt F) VO.junk (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).1)

/-- What the first point leaves in the scratch buffer: its pieces read back. -/
def scA (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) : Vec F S10000x256 .bf16 :=
  VS.read (Elt F) (VS.writes (Elt F) VS.junk (kernelRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12).2.1)

/-- What a later point leaves in the output block, the scratch holding `xs`: its pieces read back. -/
def outB (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : ¬cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) (xs : Vec F S10000x256 .bf16) : Vec F S200x256 .f32 :=
  VO.read (Elt F) (VO.writes (Elt F) VO.junk (kernelRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs).1)

/-! ## Point by point -/

/-- The first grid point. -/
def t0 : Fin cfg0.N := ⟨0, lt_of_lt_of_eq (Nat.zero_lt_succ 49) N_0.symm⟩

/-- The scratch buffer's contents from the first point on: what the first point stored. -/
def sc0 (c : Dev nD) : Vec F S10000x256 .bf16 :=
  scA c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) (ms13 t0) (hs13 t0) scM (Memref.isWhole_whole _) ((hcond0 t0).mpr (Nat.zero_mod 50)) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0)

/-- The output block after the body at point `t`. -/
def outAt (c : Dev nD) (t : Fin cfg0.N) : Vec F S200x256 .f32 :=
  if h : t.val % 50 = 0 then outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) ((hcond0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  else outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) (fun hc => h ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (sc0 m c)

theorem outAt_A (c : Dev nD) (t : Fin cfg0.N) (h : t.val % 50 = 0) :
    outAt m c t = outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) ((hcond0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := dif_pos h
theorem outAt_B (c : Dev nD) (t : Fin cfg0.N) (h : ¬t.val % 50 = 0) :
    outAt m c t = outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scM (Memref.isWhole_whole _) (fun hc => h ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (sc0 m c) := dif_neg h

/-- The region's invariant before position `n`: before the first point the scratch at anything; afterwards the scratch
    at what the first point stored. -/
def PhiS (c : Dev nD) (n : ℕ) : sProp 𝕄 :=
  if n = 0 then Pipeline.scopedRest (Ix := Unit) (Name := ℕ) (U := UR sig nD τ) (Lvl := ℕ) (Val := Elt F) spec0 c
  else owns (c : Thread nD τ) scM fullShare (sc0 m c)

theorem PhiS_zero (c : Dev nD) (n : ℕ) (hz : n = 0) :
    PhiS m c n = Pipeline.scopedRest (Ix := Unit) (Name := ℕ) (U := UR sig nD τ) (Lvl := ℕ) (Val := Elt F) spec0 c := if_pos hz
theorem PhiS_pos (c : Dev nD) (n : ℕ) (hz : n ≠ 0) : PhiS m c n = owns (c : Thread nD τ) scM fullShare (sc0 m c) := if_neg hz

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ t := PhiS m c t.val
  q w := qOf w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel
theorem liveAt8 : ∀ t : Fin cfg0.N, cfg0.idle 8 (grid0.coords t) = false := by decide +kernel
theorem liveAt9 : ∀ t : Fin cfg0.N, cfg0.idle 9 (grid0.coords t) = false := by decide +kernel
theorem liveAt10 : ∀ t : Fin cfg0.N, cfg0.idle 10 (grid0.coords t) = false := by decide +kernel
theorem liveAt11 : ∀ t : Fin cfg0.N, cfg0.idle 11 (grid0.coords t) = false := by decide +kernel
theorem liveAt12 : ∀ t : Fin cfg0.N, cfg0.idle 12 (grid0.coords t) = false := by decide +kernel
theorem liveAt13 : ∀ t : Fin cfg0.N, cfg0.idle 13 (grid0.coords t) = false := by decide +kernel

end Cert.KernelIdeal.Fr

end
-- ==== Proof.KernelIdealFr.Body.lean ====
/-
  The body obligation of the layer's region: at every grid point, from the invariant and every window's staging
  buffer at what the pipeline put there, the body runs to the invariant of the next point and every staging buffer at
  what the proof data say it leaves.  At the first point the first run applies (the scratch, at anything, is filled
  with the support); at a later point the second (the scratch, at the support, is read and handed on).
-/
import proofs.«112502_g37555194037034_cont_8to1_b_1611_12_alg».proof.Proof.KernelIdealFr.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  rw [show (dats m 0 c).leavesExact 8 t = owns (c : Thread nD τ) (ms8 t) fullShare ((dats m 0 c).after 8 t) from by
    unfold Dat.leavesExact; rw [liveAt8 t], after8]
  rw [show (dats m 0 c).leavesExact 9 t = owns (c : Thread nD τ) (ms9 t) fullShare ((dats m 0 c).after 9 t) from by
    unfold Dat.leavesExact; rw [liveAt9 t], after9]
  rw [show (dats m 0 c).leavesExact 10 t = owns (c : Thread nD τ) (ms10 t) fullShare ((dats m 0 c).after 10 t) from by
    unfold Dat.leavesExact; rw [liveAt10 t], after10]
  rw [show (dats m 0 c).leavesExact 11 t = owns (c : Thread nD τ) (ms11 t) fullShare ((dats m 0 c).after 11 t) from by
    unfold Dat.leavesExact; rw [liveAt11 t], after11]
  rw [show (dats m 0 c).leavesExact 12 t = owns (c : Thread nD τ) (ms12 t) fullShare ((dats m 0 c).after 12 t) from by
    unfold Dat.leavesExact; rw [liveAt12 t], after12]
  rw [show (dats m 0 c).leavesExact 13 t = owns (c : Thread nD τ) (ms13 t) fullShare ((dats m 0 c).after 13 t) from by
    unfold Dat.leavesExact; rw [liveAt13 t], after13]
  have hN : t.val < 50 := lt_of_lt_of_eq t.isLt (show cfg0.N = 50 from N_0)
  by_cases h0 : t.val % 50 = 0
  · have hz : t.val = 0 := by omega
    rw [outAt_A m c t h0]
    unfold outA
    rw [PhiS_castSucc m c t, PhiS_zero m c _ hz, scopedRest_eq']
    obtain rfl : t = t0 := Fin.ext hz
    unfold sc0 scA
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRunA c (grid0.coords t0) _ _ _ _ _ _ _ _ _ _ _ _ _ _ _ _ _ _ _ _ _ _ _ _ _ _ _ _ _ _ ((hcond0 t0).mpr h0) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS]; · iexact HS
    iintro ⟨H0, H1, H2, H3, H4, H5, H6, H7, H8, H9, H10, H11, H12, ⟨%e13, H13⟩, ⟨%es, HS⟩⟩
    isplitl [HS]
    · unfold owns; iexists _; isplitr
      swap; · iexact HS
      ipureintro; exact View.read_writes_of_cover _ _ _ _ _ (coverA_sc c _ _ _ _ _ _ _ _ _ _ _ _ _ _ _ _ _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns; iexists _; isplitr
    swap; · iexact H13
    ipureintro; exact View.read_writes_of_cover _ _ _ _ _ (coverA_out c _ _ _ _ _ _ _ _ _ _ _ _ _ _ _ _ _ _ _ _ _ _ _ _ _ _ _ _ _ _ _ _ _ _ _ _ _ _ _ _ _ _ _ _ _)
  · have hz : t.val ≠ 0 := fun h => h0 (by rw [h])
    rw [outAt_B m c t h0]
    unfold outB
    rw [PhiS_castSucc m c t, PhiS_pos m c _ hz]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRunB c (grid0.coords t) _ _ _ _ _ _ _ _ _ _ _ _ _ _ _ _ _ _ _ _ _ _ _ _ _ _ _ _ _ _ (fun hc => h0 ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (sc0 m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS]; · iexact HS
    iintro ⟨H0, H1, H2, H3, H4, H5, H6, H7, H8, H9, H10, H11, H12, ⟨%e13, H13⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns; iexists _; isplitr
    swap; · iexact H13
    ipureintro; exact View.read_writes_of_cover _ _ _ _ _ (coverB_out c _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KernelIdealFr.Split.lean ====
/-
  Dealing a shared array among the windows that read it.

  The two adjacency matrices are each read through five input windows.  At the region's entry each array's buffer is
  held whole at the full share; the pipeline wants every window to hold its own array at its own share.  The full share
  is halved four times (the whole, its left half, its right half, and the right half's right half) into five parts — left-left, left-right, right-left, right-right-left, right-right-right — and
  the points-to of the array splits along each halving, at the same contents; the other four windows are alone on their
  arrays and hold them at the full share.
-/
import proofs.«112502_g37555194037034_cont_8to1_b_1611_12_alg».proof.Proof.KernelIdealFr.Runs
import proofs.«112502_g37555194037034_cont_8to1_b_1611_12_alg».proof.Proof.KernelIdealFr.Shares

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's share under proof data whose inputs' shares are `qOf`: the one output window is alone on its
    array, where `qOf` is the full share too. -/
theorem share_of {c : Dev nD} (dat : Dat τ (Elt F) Unit ℕ (UR sig nD τ) ℕ cfg0 c) (hq : ∀ w, dat.q w = qOf w)
    (w : Fin 14) : dat.share w = qOf w := by
  unfold Dat.share
  rw [hq w]
  fin_cases w <;> rfl

/-- The dealing, for any contents `VV` of the buffers at the region's entry. -/
theorem hsplit_gen (c : Dev nD) (VV : (b : Ref sig .tc) → Buf (Elt F) ((c : Thread nD τ).loc b))
    (dat : Dat τ (Elt F) Unit ℕ (UR sig nD τ) ℕ cfg0 c)
    (hA : ∀ w, dat.A w = VV (Pipeline.arrRef spec0 w)) (hq : ∀ w, dat.q w = qOf w) :
    (Pipeline.arrBufs (Ix := Unit) (Name := ℕ) (U := UR sig nD τ) (Lvl := ℕ) spec0 c VV : sProp 𝕄)
      ⊢ dat.arrays (dat.arrAt · 0) := by
  classical
  have hR : dat.arrays (dat.arrAt · 0) = bigSep Finset.univ fun w : Fin 14 =>
      ((((c : Thread nD τ).loc (Pipeline.arrRef spec0 w)) ↦{qOf w} VV (Pipeline.arrRef spec0 w)) : sProp 𝕄) := by
    unfold Dat.arrays
    exact bigSep_congr fun w _ => by
      rw [(arr_whole0 w).set_eq_univ, share_of dat hq w]
      show (_ ↦{_} dat.A w) = _
      rw [hA w]
  have hL : (Pipeline.arrBufs (Ix := Unit) (Name := ℕ) (U := UR sig nD τ) (Lvl := ℕ) spec0 c VV : sProp 𝕄)
      = bigSepL [main_arg0, main_arg3, main_v0, main_arg1, main_arg2, main_v1]
          fun b => (((c : Thread nD τ).loc b) ↦{fullShare} VV b : sProp 𝕄) := by
    unfold Pipeline.arrBufs
    exact bigSep_eq_bigSepL_of_eq _ (by decide) (by decide) _
  rw [hL, hR, bigSep_W0]
  show iprop((((c : Thread nD τ).loc main_arg0) ↦{fullShare} VV main_arg0) ∗ (((c : Thread nD τ).loc main_arg3) ↦{fullShare} VV main_arg3) ∗ (((c : Thread nD τ).loc main_v0) ↦{fullShare} VV main_v0) ∗ (((c : Thread nD τ).loc main_arg1) ↦{fullShare} VV main_arg1) ∗ (((c : Thread nD τ).loc main_arg2) ↦{fullShare} VV main_arg2) ∗ (((c : Thread nD τ).loc main_v1) ↦{fullShare} VV main_v1))
    ⊢ iprop((((c : Thread nD τ).loc main_arg0) ↦{fullShare} VV main_arg0)
        ∗ (((c : Thread nD τ).loc main_arg3) ↦{fullShare} VV main_arg3)
        ∗ (((c : Thread nD τ).loc main_v0) ↦{fullShare} VV main_v0)
        ∗ (((c : Thread nD τ).loc main_arg1) ↦{fullShare.left.left} VV main_arg1)
        ∗ (((c : Thread nD τ).loc main_arg1) ↦{fullShare.left.right} VV main_arg1)
        ∗ (((c : Thread nD τ).loc main_arg1) ↦{fullShare.right.left} VV main_arg1)
        ∗ (((c : Thread nD τ).loc main_arg1) ↦{fullShare.right.right.left} VV main_arg1)
        ∗ (((c : Thread nD τ).loc main_arg1) ↦{fullShare.right.right.right} VV main_arg1)
        ∗ (((c : Thread nD τ).loc main_arg2) ↦{fullShare.left.left} VV main_arg2)
        ∗ (((c : Thread nD τ).loc main_arg2) ↦{fullShare.left.right} VV main_arg2)
        ∗ (((c : Thread nD τ).loc main_arg2) ↦{fullShare.right.left} VV main_arg2)
        ∗ (((c : Thread nD τ).loc main_arg2) ↦{fullShare.right.right.left} VV main_arg2)
        ∗ (((c : Thread nD τ).loc main_arg2) ↦{fullShare.right.right.right} VV main_arg2)
        ∗ (((c : Thread nD τ).loc main_v1) ↦{fullShare} VV main_v1))
  iintro ⟨H0, H3, Hv0, H1, H2, Hv1⟩
  ihave A1s := (pointsTo_share (PosShare.mem_left_op_right fullShare)).1 $$ H1
  icases A1s with ⟨A1l, A1r⟩
  ihave A1ls := (pointsTo_share (PosShare.mem_left_op_right fullShare.left)).1 $$ A1l
  icases A1ls with ⟨A1ll, A1lr⟩
  ihave A1rs := (pointsTo_share (PosShare.mem_left_op_right fullShare.right)).1 $$ A1r
  icases A1rs with ⟨A1rl, A1rr⟩
  ihave A1rrs := (pointsTo_share (PosShare.mem_left_op_right fullShare.right.right)).1 $$ A1rr
  icases A1rrs with ⟨A1rrl, A1rrr⟩
  ihave A2s := (pointsTo_share (PosShare.mem_left_op_right fullShare)).1 $$ H2
  icases A2s with ⟨A2l, A2r⟩
  ihave A2ls := (pointsTo_share (PosShare.mem_left_op_right fullShare.left)).1 $$ A2l
  icases A2ls with ⟨A2ll, A2lr⟩
  ihave A2rs := (pointsTo_share (PosShare.mem_left_op_right fullShare.right)).1 $$ A2r
  icases A2rs with ⟨A2rl, A2rr⟩
  ihave A2rrs := (pointsTo_share (PosShare.mem_left_op_right fullShare.right.right)).1 $$ A2rr
  icases A2rrs with ⟨A2rrl, A2rrr⟩
  isplitl [H0]; · iexact H0
  isplitl [H3]; · iexact H3
  isplitl [Hv0]; · iexact Hv0
  isplitl [A1ll]; · iexact A1ll
  isplitl [A1lr]; · iexact A1lr
  isplitl [A1rl]; · iexact A1rl
  isplitl [A1rrl]; · iexact A1rrl
  isplitl [A1rrr]; · iexact A1rrr
  isplitl [A2ll]; · iexact A2ll
  isplitl [A2lr]; · iexact A2lr
  isplitl [A2rl]; · iexact A2rl
  isplitl [A2rrl]; · iexact A2rrl
  isplitl [A2rrr]; · iexact A2rrr
  iexact Hv1

/-- The buffers behind the windows' arrays, each whole at the full share at the region-entry contents, yield every
    window its array at its share at those contents. -/
theorem hsplit_of (c : Dev nD) (dat : Dat τ (Elt F) Unit ℕ (UR sig nD τ) ℕ cfg0 c)
    (hA : ∀ w, dat.A w = V m c (Pipeline.arrRef spec0 w)) (hq : ∀ w, dat.q w = qOf w) :
    (Pipeline.arrBufs (Ix := Unit) (Name := ℕ) (U := UR sig nD τ) (Lvl := ℕ) spec0 c (V m c) : sProp 𝕄)
      ⊢ dat.arrays (dat.arrAt · 0) :=
  hsplit_gen c (V m c) dat hA hq

end Cert.KernelIdeal.Fr

end
-- ==== Proof.KernelIdealFr.Frame.lean ====
/-
  The frame of the layer's program: from any memory with zero counters every weakly fair execution of the host line
  and the pipelined region terminates, nothing faulting; every window's array ends at what the proof data compute for
  it — an input array at its contents at the region's entry — and the bias vector, which no window stages, is read back
  as it was.  So the five arguments end unchanged.
-/
import proofs.«112502_g37555194037034_cont_8to1_b_1611_12_alg».proof.Proof.KernelIdealFr.Body
import proofs.«112502_g37555194037034_cont_8to1_b_1611_12_alg».proof.Proof.KernelIdealFr.Split

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scoped rest (the scratch at anything) is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 from rfl, PhiS_zero m c 0 rfl]
  try exact Idealize.SL.BI.Entails.refl _

/-- After the last point the invariant gives the scoped rest back: what the scratch holds is forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val from rfl,
    PhiS_pos m c _ (by rw [Fin.val_last]; have : cfg0.N = 50 := N_0; omega), scopedRest_eq']
  iintro HS
  iexists _; iexact HS

/-- The arrays at the region's entry, dealt among the windows. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) :=
  hsplit_of m c (dats m 0 c) (A_eq m c) (fun _ => rfl)

set_option backward.isDefEq.respectTransparency.types false in
/-- The run: every array of the pipeline ends at what the library computes from the proof data, every other unscoped
    buffer as the region found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m) (hin := hin m) (hout := hout m)

/-- The frame: the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 8).trans (((dats m 0 c).arrAt_in 8 rfl _).trans ((A_eq m c 8).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c)⟩) (run_main m ρ)

end Cert.KernelIdeal.Fr

end
-- ==== Proof.GcSpec.lean ====
/-
  The mathematics of the graph-convolution layer, stated once over the extended reals and with no program in sight.

  The layer's inputs are a vertex matrix `V` (10000 × 256), two adjacency matrices `A₁`, `A₂` (10000 × 10000), a weight
  matrix `W` (256 × 256) and a bias row `b` (256).  Its "support" is the product `S = V · W`.  One program forms the
  FUSED result `(A₁ + A₂) · S + b`, the other the TWO-PRODUCT result `A₁ · S + A₂ · S + b`.  Both are written here entry by
  entry, as sums over the contracted index, and shown equal when every entry of `V`, `W`, `A₁`, `A₂` is a real number:
  on the extended reals `(x + y) · s = x · s + y · s` can fail at infinities (for instance `x = +∞`, `y = -∞`), so the
  hypothesis is used, and only for the four matrices — the bias is added on both sides in the same place and may be
  any extended real.
-/
import Idealize.ShloMosaic.PureOps.Ideal
import Idealize.ShloMosaic.Lib.ValueIdx

noncomputable section

namespace Cert.GcSpec

open Idealize.ShloMosaic Idealize.ShloMosaic.ValueIdx

/-- The shape of the vertex matrix, of the support and of the result. -/
abbrev SNF : Shape := ⟨2, ![10000, 256]⟩
/-- The shape of an adjacency matrix. -/
abbrev SNN : Shape := ⟨2, ![10000, 10000]⟩
/-- The shape of the weight matrix. -/
abbrev SFF : Shape := ⟨2, ![256, 256]⟩
/-- The shape of the bias. -/
abbrev SF : Shape := ⟨1, ![256]⟩

/-- The support `S = V · W` at row `k`, column `f`: the sum over `j` of `V[k, j] · W[j, f]`. -/
def support (V : SNF.Idx → EReal) (W : SFF.Idx → EReal) (k : Fin 10000) (f : Fin 256) : EReal :=
  ∑ j : Fin 256, V (ix2 k j) * W (ix2 j f)

/-- The fused layer `(A₁ + A₂) · S + b`, entry by entry. -/
def fused (V : SNF.Idx → EReal) (A1 A2 : SNN.Idx → EReal) (W : SFF.Idx → EReal) (b : SF.Idx → EReal) : SNF.Idx → EReal :=
  fun i => (∑ k : Fin 10000, (A1 (ix2 (i 0) k) + A2 (ix2 (i 0) k)) * support V W k (i 1)) + b (ix1 (i 1))

/-- The layer as two products, `A₁ · S + A₂ · S + b`, entry by entry. -/
def twoProducts (V : SNF.Idx → EReal) (A1 A2 : SNN.Idx → EReal) (W : SFF.Idx → EReal) (b : SF.Idx → EReal) : SNF.Idx → EReal :=
  fun i => ((∑ k : Fin 10000, A1 (ix2 (i 0) k) * support V W k (i 1)) + (∑ k : Fin 10000, A2 (ix2 (i 0) k) * support V W k (i 1)))
    + b (ix1 (i 1))

/-- Every entry of `X` is a real number (neither infinity). -/
def AllReal {s : Shape} (X : s.Idx → EReal) : Prop := ∀ i, ∃ r : ℝ, X i = (r : EReal)

end Cert.GcSpec

end
-- ==== Proof.GcPayload.lean ====
/-
  The kernel's stored values read at an index, at the ideal values.

  Each value the kernel stores is a matrix product into a zero accumulator, possibly of a sum of two matrices on the
  left, plus a bias row broadcast over the rows.  Read at a row and a column, a matrix product is the sum over the
  contracted coordinate of the products of the two entries; a change of number format is the identity on the extended
  reals; a cast to the same shape is the identity; a row broadcast reads the row's entry at the column.
-/
import proofs.«112502_g37555194037034_cont_8to1_b_1611_12_alg».proof.Proof.Gen.KernelIdeal.Skeleton
import proofs.«112502_g37555194037034_cont_8to1_b_1611_12_alg».proof.Proof.GcSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The two matrix products read at a row and a column

For each of the two dimension records: the operand indices at an output index and a contraction index, coordinate by
coordinate; then the product into the zero accumulator as the sum over the contracted coordinate. -/

theorem matmul_vw_lhs_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide),
    dif_pos (show (0 : Fin S10000x256.rank) ∈ dot_S10000x256_S256x256_S10000x256_1_0_0_1_n_n.lhsNonContracting by decide)]
  rfl
theorem matmul_vw_lhs_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem matmul_vw_rhs_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem matmul_vw_rhs_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide),
    dif_pos (show (1 : Fin S256x256.rank) ∈ dot_S10000x256_S256x256_S10000x256_1_0_0_1_n_n.rhsNonContracting by decide)]
  rfl

/-- The product of a `[10000, 256]` matrix with a `[256, 256]` one, into the zero accumulator, at row `n` and column
    `f`: the sum over `j` of the left entry `(n, j)` times the right entry `(j, f)`. -/
theorem matmul_vw_apply (x : FVec Ideal S10000x256 .bf16) (y : FVec Ideal S256x256 .bf16) (n : Fin 10000) (f : Fin 256) :
    matmul dot_S10000x256_S256x256_S10000x256_1_0_0_1_n_n none x y (constant (F := Ideal) S10000x256 .f32 0x00000000#32) (ix2 n f)
      = ∑ j : Fin 256, x (ix2 n j) * y (ix2 j f) := by
  simp only [matmul]
  rw [Ideal.matmul_constant_zero_apply,
    ← Equiv.sum_comp (contrEquiv1 dot_S10000x256_S256x256_S10000x256_1_0_0_1_n_n 256 rfl rfl).symm]
  refine Finset.sum_congr rfl fun k _ => ?_
  have hk := contrEquiv1_symm_val dot_S10000x256_S256x256_S10000x256_1_0_0_1_n_n 256 rfl rfl k
  have el : dot_S10000x256_S256x256_S10000x256_1_0_0_1_n_n.lhsIdx (ix2 n f) ((contrEquiv1 dot_S10000x256_S256x256_S10000x256_1_0_0_1_n_n 256 rfl rfl).symm k) = ix2 n k :=
    funext fun a => Fin.ext (by
      match a with
      | ⟨0, _⟩ => exact matmul_vw_lhs_0 _ _
      | ⟨1, _⟩ => exact (matmul_vw_lhs_1 _ _).trans hk)
  have er : dot_S10000x256_S256x256_S10000x256_1_0_0_1_n_n.rhsIdx (ix2 n f) ((contrEquiv1 dot_S10000x256_S256x256_S10000x256_1_0_0_1_n_n 256 rfl rfl).symm k) = ix2 k f :=
    funext fun a => Fin.ext (by
      match a with
      | ⟨0, _⟩ => exact (matmul_vw_rhs_0 _ _).trans hk
      | ⟨1, _⟩ => exact matmul_vw_rhs_1 _ _)
  rw [el, er]

theorem matmul_as_lhs_0 (i : S40x256.Idx) (q : dot_S40x10000_S10000x256_S40x256_1_0_0_1_n_n.contr.Idx) :
    (dot_S40x10000_S10000x256_S40x256_1_0_0_1_n_n.lhsIdx i q 0).val = (i 0).val := by
  unfold DotDims.lhsIdx
  rw [dif_neg (show ¬(0 : Fin S40x10000.rank) ∈ dot_S40x10000_S10000x256_S40x256_1_0_0_1_n_n.lhsBatch by decide),
    dif_pos (show (0 : Fin S40x10000.rank) ∈ dot_S40x10000_S10000x256_S40x256_1_0_0_1_n_n.lhsNonContracting by decide)]
  rfl
theorem matmul_as_lhs_1 (i : S40x256.Idx) (q : dot_S40x10000_S10000x256_S40x256_1_0_0_1_n_n.contr.Idx) :
    (dot_S40x10000_S10000x256_S40x256_1_0_0_1_n_n.lhsIdx i q 1).val = (q ⟨0, by decide⟩).val :=
  dot_S40x10000_S10000x256_S40x256_1_0_0_1_n_n.lhsIdx_val_of_single rfl i q
theorem matmul_as_rhs_0 (i : S40x256.Idx) (q : dot_S40x10000_S10000x256_S40x256_1_0_0_1_n_n.contr.Idx) :
    (dot_S40x10000_S10000x256_S40x256_1_0_0_1_n_n.rhsIdx i q 0).val = (q ⟨0, by decide⟩).val :=
  dot_S40x10000_S10000x256_S40x256_1_0_0_1_n_n.rhsIdx_val_of_single rfl i q
theorem matmul_as_rhs_1 (i : S40x256.Idx) (q : dot_S40x10000_S10000x256_S40x256_1_0_0_1_n_n.contr.Idx) :
    (dot_S40x10000_S10000x256_S40x256_1_0_0_1_n_n.rhsIdx i q 1).val = (i 1).val := by
  unfold DotDims.rhsIdx
  rw [dif_neg (show ¬(1 : Fin S10000x256.rank) ∈ dot_S40x10000_S10000x256_S40x256_1_0_0_1_n_n.rhsBatch by decide),
    dif_pos (show (1 : Fin S10000x256.rank) ∈ dot_S40x10000_S10000x256_S40x256_1_0_0_1_n_n.rhsNonContracting by decide)]
  rfl

/-- The product of a `[40, 10000]` matrix with a `[10000, 256]` one, into the zero accumulator, at row `p` and column
    `f`: the sum over `k` of the left entry `(p, k)` times the right entry `(k, f)`. -/
theorem matmul_as_apply (x : FVec Ideal S40x10000 .bf16) (y : FVec Ideal S10000x256 .bf16) (p : Fin 40) (f : Fin 256) :
    matmul dot_S40x10000_S10000x256_S40x256_1_0_0_1_n_n none x y (constant (F := Ideal) S40x256 .f32 0x00000000#32) (ix2 p f)
      = ∑ k : Fin 10000, x (ix2 p k) * y (ix2 k f) := by
  simp only [matmul]
  rw [Ideal.matmul_constant_zero_apply,
    ← Equiv.sum_comp (contrEquiv1 dot_S40x10000_S10000x256_S40x256_1_0_0_1_n_n 10000 rfl rfl).symm]
  refine Finset.sum_congr rfl fun k _ => ?_
  have hk := contrEquiv1_symm_val dot_S40x10000_S10000x256_S40x256_1_0_0_1_n_n 10000 rfl rfl k
  have el : dot_S40x10000_S10000x256_S40x256_1_0_0_1_n_n.lhsIdx (ix2 p f) ((contrEquiv1 dot_S40x10000_S10000x256_S40x256_1_0_0_1_n_n 10000 rfl rfl).symm k) = ix2 p k :=
    funext fun a => Fin.ext (by
      match a with
      | ⟨0, _⟩ => exact matmul_as_lhs_0 _ _
      | ⟨1, _⟩ => exact (matmul_as_lhs_1 _ _).trans hk)
  have er : dot_S40x10000_S10000x256_S40x256_1_0_0_1_n_n.rhsIdx (ix2 p f) ((contrEquiv1 dot_S40x10000_S10000x256_S40x256_1_0_0_1_n_n 10000 rfl rfl).symm k) = ix2 k f :=
    funext fun a => Fin.ext (by
      match a with
      | ⟨0, _⟩ => exact (matmul_as_rhs_0 _ _).trans hk
      | ⟨1, _⟩ => exact matmul_as_rhs_1 _ _)
  rw [el, er]

/-! ## The stored values at an index -/

/-- The support block the kernel stores: at `(n, f)`, the sum over `j` of `v58 (n, j) * v60 (j, f)`. -/
theorem pay1_apply (v58 : Vec Ideal S10000x256 .f32) (v60 : Vec Ideal S256x256 .f32) (n : Fin 10000) (f : Fin 256) :
    k0_pay1 (F := Ideal) v58 v60 (ix2 n f) = ∑ j : Fin 256, v58 (ix2 n j) * v60 (ix2 j f) := by
  unfold k0_pay1
  rw [shapeCast_self, truncf_apply, matmul_vw_apply]
  rfl

/-- A fused block: at `(p, f)`, the sum over `k` of `(v3 (p, k) + v4 (p, k)) * v7 (k, f)`, plus the bias at `f`. -/
theorem pay2_apply (v3 v4 : Vec Ideal S40x10000 .f32) (v7 : Vec Ideal S10000x256 .bf16) (v9 : Vec Ideal S1x256 .f32)
    (p : Fin 40) (f : Fin 256) :
    k0_pay2 (F := Ideal) v3 v4 v7 v9 (ix2 p f)
      = (∑ k : Fin 10000, (v3 (ix2 p k) + v4 (ix2 p k)) * v7 (ix2 k f)) + v9 (ix2 0 f) := by
  unfold k0_pay2
  rw [addf_apply, matmul_as_apply, shapeCast_self, broadcastTo_1b_ab_apply]
  rfl

/-- A fused block: at `(p, f)`, the sum over `k` of `(v14 (p, k) + v15 (p, k)) * v18 (k, f)`, plus the bias at `f`. -/
theorem pay3_apply (v14 v15 : Vec Ideal S40x10000 .f32) (v18 : Vec Ideal S10000x256 .bf16) (v20 : Vec Ideal S1x256 .f32)
    (p : Fin 40) (f : Fin 256) :
    k0_pay3 (F := Ideal) v14 v15 v18 v20 (ix2 p f)
      = (∑ k : Fin 10000, (v14 (ix2 p k) + v15 (ix2 p k)) * v18 (ix2 k f)) + v20 (ix2 0 f) := by
  unfold k0_pay3
  rw [addf_apply, matmul_as_apply, shapeCast_self, broadcastTo_1b_ab_apply]
  rfl

/-- The sum of the two adjacency blocks, entry by entry. -/
theorem pay4_apply (v25 v26 : Vec Ideal S40x10000 .f32) (i : S40x10000.Idx) :
    k0_pay4 (F := Ideal) v25 v26 i = v25 i + v26 i := rfl

/-- A block whose left factor is already summed: at `(p, f)`, the sum over `k` of `v27 (p, k) * v29 (k, f)`, plus the
    bias at `f`. -/
theorem pay5_apply (v27 : FVec Ideal S40x10000 .f32) (v29 : Vec Ideal S10000x256 .bf16) (v31 : Vec Ideal S1x256 .f32)
    (p : Fin 40) (f : Fin 256) :
    k0_pay5 (F := Ideal) v27 v29 v31 (ix2 p f)
      = (∑ k : Fin 10000, v27 (ix2 p k) * v29 (ix2 k f)) + v31 (ix2 0 f) := by
  unfold k0_pay5
  rw [addf_apply, matmul_as_apply, shapeCast_self, broadcastTo_1b_ab_apply]
  rfl

/-- A fused block: at `(p, f)`, the sum over `k` of `(v36 (p, k) + v37 (p, k)) * v40 (k, f)`, plus the bias at `f`. -/
theorem pay6_apply (v36 v37 : Vec Ideal S40x10000 .f32) (v40 : Vec Ideal S10000x256 .bf16) (v42 : Vec Ideal S1x256 .f32)
    (p : Fin 40) (f : Fin 256) :
    k0_pay6 (F := Ideal) v36 v37 v40 v42 (ix2 p f)
      = (∑ k : Fin 10000, (v36 (ix2 p k) + v37 (ix2 p k)) * v40 (ix2 k f)) + v42 (ix2 0 f) := by
  unfold k0_pay6
  rw [addf_apply, matmul_as_apply, shapeCast_self, broadcastTo_1b_ab_apply]
  rfl

/-- A fused block: at `(p, f)`, the sum over `k` of `(v47 (p, k) + v48 (p, k)) * v51 (k, f)`, plus the bias at `f`. -/
theorem pay7_apply (v47 v48 : Vec Ideal S40x10000 .f32) (v51 : Vec Ideal S10000x256 .bf16) (v53 : Vec Ideal S1x256 .f32)
    (p : Fin 40) (f : Fin 256) :
    k0_pay7 (F := Ideal) v47 v48 v51 v53 (ix2 p f)
      = (∑ k : Fin 10000, (v47 (ix2 p k) + v48 (ix2 p k)) * v51 (ix2 k f)) + v53 (ix2 0 f) := by
  unfold k0_pay7
  rw [addf_apply, matmul_as_apply, shapeCast_self, broadcastTo_1b_ab_apply]
  rfl

end Cert.KernelIdeal.Payload

end
-- ==== Proof.KernelIdealFr.Pieces.lean ====
/-
  What the two runs of the body leave, read as values.

  The first run stores the support of the vertex and weight blocks whole into the scratch buffer, and five 40-row
  strips into the 200-row output block, each the product of the sum of two adjacency blocks with the support, plus the
  bias row.  A later run stores the same five strips computed from the scratch buffer's contents.  Each buffer is read
  back as the payloads of its stores; at a row and a column of the output block, the strip holding the row is read at
  the row inside it, and its payload there is the sum over the contracted vertex of the products, plus the bias.
-/
import proofs.«112502_g37555194037034_cont_8to1_b_1611_12_alg».proof.Proof.KernelIdealFr.Data
import proofs.«112502_g37555194037034_cont_8to1_b_1611_12_alg».proof.Proof.GcPayload

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## Reading five stacked 40-row strips -/

theorem hz2 : (![0, 0] : Fin 2 → Nat) = fun _ => 0 := funext fun a => by fin_cases a <;> rfl

section Strips
variable {Val : EltTy → Type} [∀ e, Nonempty (Val e)]

/-- The strip of 40 rows from row `o` of the 200-row block places its entry `(p, f)` at row `o + p`, column `f`. -/
theorem emb_strip (o : Nat) (inb : ∀ a, (![o, 0] : Fin 2 → Nat) a + S40x256.size a ≤ S200x256.size a)
    (p : Fin 40) (f : Fin 256) (r : Fin 200) (hr : r.val = o + p.val) :
    (Rect.unit (s := S200x256) ![o, 0] S40x256.size inb).emb (ix2 p f) = ix2 r f := by
  funext a
  refine Fin.ext ?_
  match a with
  | ⟨0, _⟩ =>
    show o + 1 * p.val = r.val
    omega
  | ⟨1, _⟩ =>
    show 0 + 1 * f.val = f.val
    omega

/-- A row below a strip's first row, or from its last row on, is not in the strip. -/
theorem not_mem_strip (o : Nat) (inb : ∀ a, (![o, 0] : Fin 2 → Nat) a + S40x256.size a ≤ S200x256.size a)
    (r : Fin 200) (f : Fin 256) (hr : r.val < o ∨ o + 40 ≤ r.val) :
    ix2 r f ∉ (Rect.unit (s := S200x256) ![o, 0] S40x256.size inb).set := by
  rw [Rect.mem_set_unit]
  intro h
  have h0 := h 0
  have e1 : ((ix2 r f : S200x256.Idx) 0 : Nat) = r.val := rfl
  have e2 : (![o, 0] : Fin 2 → Nat) 0 = o := rfl
  have e3 : S40x256.size 0 = 40 := rfl
  rw [e1, e2, e3] at h0
  omega

/-- Off the last-written strip, the earlier writes are read. -/
theorem canon_skip (o : Nat) (inb : ∀ a, (![o, 0] : Fin 2 → Nat) a + S40x256.size a ≤ S200x256.size a)
    (w : S40x256.Idx → Val .f32) (L : List (View.Piece Val S200x256 .f32)) (r : Fin 200) (f : Fin 256)
    (hr : r.val < o ∨ o + 40 ≤ r.val) :
    View.canon ((⟨Rect.unit (s := S200x256) ![o, 0] S40x256.size inb, w⟩ : View.Piece Val S200x256 .f32) :: L) (ix2 r f)
      = View.canon L (ix2 r f) :=
  View.canon_cons_of_not_mem (⟨Rect.unit (s := S200x256) ![o, 0] S40x256.size inb, w⟩ : View.Piece Val S200x256 .f32) L
    (not_mem_strip o inb r f hr)

/-- On the last-written strip, its payload is read at the row inside the strip. -/
theorem canon_hit (o : Nat) (inb : ∀ a, (![o, 0] : Fin 2 → Nat) a + S40x256.size a ≤ S200x256.size a)
    (w : S40x256.Idx → Val .f32) (L : List (View.Piece Val S200x256 .f32)) (r : Fin 200) (p : Fin 40) (f : Fin 256)
    (hr : r.val = o + p.val) :
    View.canon ((⟨Rect.unit (s := S200x256) ![o, 0] S40x256.size inb, w⟩ : View.Piece Val S200x256 .f32) :: L) (ix2 r f)
      = w (ix2 p f) := by
  rw [← emb_strip o inb p f r hr]
  exact View.canon_cons_emb (Rect.unit (s := S200x256) ![o, 0] S40x256.size inb) w L (ix2 p f)

/-- The five strips the body stores, from rows 160, 120, 80, 40 and 0, the last store first. -/
abbrev strips (w4 w3 w2 w1 w0 : S40x256.Idx → Val .f32) : List (View.Piece Val S200x256 .f32) :=
  [⟨Rect.unit (s := S200x256) ![160, 0] S40x256.size inb_S200x256_S40x256_160_0, w4⟩,
      ⟨Rect.unit (s := S200x256) ![120, 0] S40x256.size inb_S200x256_S40x256_120_0, w3⟩,
      ⟨Rect.unit (s := S200x256) ![80, 0] S40x256.size inb_S200x256_S40x256_80_0, w2⟩,
      ⟨Rect.unit (s := S200x256) ![40, 0] S40x256.size inb_S200x256_S40x256_40_0, w1⟩,
      ⟨Rect.unit (s := S200x256) ![0, 0] S40x256.size inb_S200x256_S40x256_0_0, w0⟩]

end Strips

/-! ## What the runs leave, as payloads of the blocks -/

/-- The first point leaves the support of the vertex and weight blocks in the scratch buffer. -/
theorem scA_eq (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) :
    scA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 = Gen.k0_pay1 x0 x1 := by
  unfold scA
  rw [View.read_writes_junk_eq_canon]
  unfold kernelRunA
  dsimp only
  sl_unfold_words
  rw [View.canon_unit_zero hz2]
  simp only [View.readAt_eq_ld, harg1.read_unread, harg2.read_unread, View.ld_unit_zero (S := S10000x256) hz2, View.ld_unit_zero (S := S256x256) hz2]

/-- The first point leaves five strips in the output block, each computed from its two adjacency blocks, the support
    it has just stored, and the bias. -/
theorem outA_eq (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) :
    outA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12
      = View.canon (strips (Val := Elt F) (Gen.k0_pay7 x7 x12 (Gen.k0_pay1 x0 x1) x2) (Gen.k0_pay6 x6 x11 (Gen.k0_pay1 x0 x1) x2)
          (Gen.k0_pay5 (Gen.k0_pay4 x5 x10) (Gen.k0_pay1 x0 x1) x2) (Gen.k0_pay3 x4 x9 (Gen.k0_pay1 x0 x1) x2)
          (Gen.k0_pay2 x3 x8 (Gen.k0_pay1 x0 x1) x2)) := by
  unfold outA
  rw [View.read_writes_junk_eq_canon]
  unfold kernelRunA
  dsimp only
  sl_unfold_words
  simp only [View.readCov_unit_zero (S := S10000x256) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread, View.ld_unit_zero (S := S10000x256) hz2, View.ld_unit_zero (S := S256x256) hz2, View.ld_unit_zero (S := S1x256) hz2, View.ld_unit_zero (S := S40x10000) hz2]

/-- A later point leaves five strips in the output block, each computed from its two adjacency blocks, the scratch
    buffer's contents, and the bias. -/
theorem outB_eq (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : ¬cond0 i) (x0 : Vec F S10000x256 .f32) (x1 : Vec F S256x256 .f32) (x2 : Vec F S1x256 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S40x10000 .f32) (x11 : Vec F S40x10000 .f32) (x12 : Vec F S40x10000 .f32) (xs : Vec F S10000x256 .bf16) :
    outB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs
      = View.canon (strips (Val := Elt F) (Gen.k0_pay7 x7 x12 xs x2) (Gen.k0_pay6 x6 x11 xs x2)
          (Gen.k0_pay5 (Gen.k0_pay4 x5 x10) xs x2) (Gen.k0_pay3 x4 x9 xs x2) (Gen.k0_pay2 x3 x8 xs x2)) := by
  unfold outB
  rw [View.read_writes_junk_eq_canon]
  unfold kernelRunB
  dsimp only
  sl_unfold_words
  simp only [View.readCov_unit_zero (S := S10000x256) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg15.read_unread, View.ld_unit_zero (S := S10000x256) hz2, View.ld_unit_zero (S := S256x256) hz2, View.ld_unit_zero (S := S1x256) hz2, View.ld_unit_zero (S := S40x10000) hz2]

/-! ## The output block at a row and a column, at the ideal values

Row `r` of the 200-row block lies in strip `j` when `r = 40 j + p` with `p` below 40; strip `j` is computed from the
`j`-th block of each adjacency matrix. -/

/-- The first point's output block in strip 0 (rows 0 to 39). -/
theorem outA_row0 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec Ideal S10000x256 .f32) (x1 : Vec Ideal S256x256 .f32) (x2 : Vec Ideal S1x256 .f32) (x3 : Vec Ideal S40x10000 .f32) (x4 : Vec Ideal S40x10000 .f32) (x5 : Vec Ideal S40x10000 .f32) (x6 : Vec Ideal S40x10000 .f32) (x7 : Vec Ideal S40x10000 .f32) (x8 : Vec Ideal S40x10000 .f32) (x9 : Vec Ideal S40x10000 .f32) (x10 : Vec Ideal S40x10000 .f32) (x11 : Vec Ideal S40x10000 .f32) (x12 : Vec Ideal S40x10000 .f32)
    (r : Fin 200) (p : Fin 40) (f : Fin 256) (hr : r.val = 0 + p.val) :
    outA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 (ix2 r f)
      = (∑ k : Fin 10000, (x3 (ix2 p k) + x8 (ix2 p k)) * (∑ j' : Fin 256, x0 (ix2 k j') * x1 (ix2 j' f))) + x2 (ix2 0 f) := by
  have hp := p.isLt
  rw [outA_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12]
  refine ((canon_skip (Val := Elt Ideal) 160 inb_S200x256_S40x256_160_0 (Gen.k0_pay7 x7 x12 (Gen.k0_pay1 x0 x1) x2) [⟨Rect.unit (s := S200x256) ![120, 0] S40x256.size inb_S200x256_S40x256_120_0, (Gen.k0_pay6 x6 x11 (Gen.k0_pay1 x0 x1) x2)⟩, ⟨Rect.unit (s := S200x256) ![80, 0] S40x256.size inb_S200x256_S40x256_80_0, (Gen.k0_pay5 (Gen.k0_pay4 x5 x10) (Gen.k0_pay1 x0 x1) x2)⟩, ⟨Rect.unit (s := S200x256) ![40, 0] S40x256.size inb_S200x256_S40x256_40_0, (Gen.k0_pay3 x4 x9 (Gen.k0_pay1 x0 x1) x2)⟩, ⟨Rect.unit (s := S200x256) ![0, 0] S40x256.size inb_S200x256_S40x256_0_0, (Gen.k0_pay2 x3 x8 (Gen.k0_pay1 x0 x1) x2)⟩] r f (by omega)).trans ((canon_skip (Val := Elt Ideal) 120 inb_S200x256_S40x256_120_0 (Gen.k0_pay6 x6 x11 (Gen.k0_pay1 x0 x1) x2) [⟨Rect.unit (s := S200x256) ![80, 0] S40x256.size inb_S200x256_S40x256_80_0, (Gen.k0_pay5 (Gen.k0_pay4 x5 x10) (Gen.k0_pay1 x0 x1) x2)⟩, ⟨Rect.unit (s := S200x256) ![40, 0] S40x256.size inb_S200x256_S40x256_40_0, (Gen.k0_pay3 x4 x9 (Gen.k0_pay1 x0 x1) x2)⟩, ⟨Rect.unit (s := S200x256) ![0, 0] S40x256.size inb_S200x256_S40x256_0_0, (Gen.k0_pay2 x3 x8 (Gen.k0_pay1 x0 x1) x2)⟩] r f (by omega)).trans ((canon_skip (Val := Elt Ideal) 80 inb_S200x256_S40x256_80_0 (Gen.k0_pay5 (Gen.k0_pay4 x5 x10) (Gen.k0_pay1 x0 x1) x2) [⟨Rect.unit (s := S200x256) ![40, 0] S40x256.size inb_S200x256_S40x256_40_0, (Gen.k0_pay3 x4 x9 (Gen.k0_pay1 x0 x1) x2)⟩, ⟨Rect.unit (s := S200x256) ![0, 0] S40x256.size inb_S200x256_S40x256_0_0, (Gen.k0_pay2 x3 x8 (Gen.k0_pay1 x0 x1) x2)⟩] r f (by omega)).trans ((canon_skip (Val := Elt Ideal) 40 inb_S200x256_S40x256_40_0 (Gen.k0_pay3 x4 x9 (Gen.k0_pay1 x0 x1) x2) [⟨Rect.unit (s := S200x256) ![0, 0] S40x256.size inb_S200x256_S40x256_0_0, (Gen.k0_pay2 x3 x8 (Gen.k0_pay1 x0 x1) x2)⟩] r f (by omega)).trans (canon_hit (Val := Elt Ideal) 0 inb_S200x256_S40x256_0_0 (Gen.k0_pay2 x3 x8 (Gen.k0_pay1 x0 x1) x2) [] r p f hr))))).trans ?_
  refine (Payload.pay2_apply x3 x8 (Gen.k0_pay1 x0 x1) x2 p f).trans ?_
  exact congrArg (· + x2 (ix2 0 f)) (Finset.sum_congr rfl fun k _ => by rw [Payload.pay1_apply])

/-- A later point's output block in strip 0 (rows 0 to 39), the scratch buffer holding `xs`. -/
theorem outB_row0 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : ¬cond0 i) (x0 : Vec Ideal S10000x256 .f32) (x1 : Vec Ideal S256x256 .f32) (x2 : Vec Ideal S1x256 .f32) (x3 : Vec Ideal S40x10000 .f32) (x4 : Vec Ideal S40x10000 .f32) (x5 : Vec Ideal S40x10000 .f32) (x6 : Vec Ideal S40x10000 .f32) (x7 : Vec Ideal S40x10000 .f32) (x8 : Vec Ideal S40x10000 .f32) (x9 : Vec Ideal S40x10000 .f32) (x10 : Vec Ideal S40x10000 .f32) (x11 : Vec Ideal S40x10000 .f32) (x12 : Vec Ideal S40x10000 .f32) (xs : Vec Ideal S10000x256 .bf16)
    (r : Fin 200) (p : Fin 40) (f : Fin 256) (hr : r.val = 0 + p.val) :
    outB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs (ix2 r f)
      = (∑ k : Fin 10000, (x3 (ix2 p k) + x8 (ix2 p k)) * xs (ix2 k f)) + x2 (ix2 0 f) := by
  have hp := p.isLt
  rw [outB_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs]
  refine ((canon_skip (Val := Elt Ideal) 160 inb_S200x256_S40x256_160_0 (Gen.k0_pay7 x7 x12 xs x2) [⟨Rect.unit (s := S200x256) ![120, 0] S40x256.size inb_S200x256_S40x256_120_0, (Gen.k0_pay6 x6 x11 xs x2)⟩, ⟨Rect.unit (s := S200x256) ![80, 0] S40x256.size inb_S200x256_S40x256_80_0, (Gen.k0_pay5 (Gen.k0_pay4 x5 x10) xs x2)⟩, ⟨Rect.unit (s := S200x256) ![40, 0] S40x256.size inb_S200x256_S40x256_40_0, (Gen.k0_pay3 x4 x9 xs x2)⟩, ⟨Rect.unit (s := S200x256) ![0, 0] S40x256.size inb_S200x256_S40x256_0_0, (Gen.k0_pay2 x3 x8 xs x2)⟩] r f (by omega)).trans ((canon_skip (Val := Elt Ideal) 120 inb_S200x256_S40x256_120_0 (Gen.k0_pay6 x6 x11 xs x2) [⟨Rect.unit (s := S200x256) ![80, 0] S40x256.size inb_S200x256_S40x256_80_0, (Gen.k0_pay5 (Gen.k0_pay4 x5 x10) xs x2)⟩, ⟨Rect.unit (s := S200x256) ![40, 0] S40x256.size inb_S200x256_S40x256_40_0, (Gen.k0_pay3 x4 x9 xs x2)⟩, ⟨Rect.unit (s := S200x256) ![0, 0] S40x256.size inb_S200x256_S40x256_0_0, (Gen.k0_pay2 x3 x8 xs x2)⟩] r f (by omega)).trans ((canon_skip (Val := Elt Ideal) 80 inb_S200x256_S40x256_80_0 (Gen.k0_pay5 (Gen.k0_pay4 x5 x10) xs x2) [⟨Rect.unit (s := S200x256) ![40, 0] S40x256.size inb_S200x256_S40x256_40_0, (Gen.k0_pay3 x4 x9 xs x2)⟩, ⟨Rect.unit (s := S200x256) ![0, 0] S40x256.size inb_S200x256_S40x256_0_0, (Gen.k0_pay2 x3 x8 xs x2)⟩] r f (by omega)).trans ((canon_skip (Val := Elt Ideal) 40 inb_S200x256_S40x256_40_0 (Gen.k0_pay3 x4 x9 xs x2) [⟨Rect.unit (s := S200x256) ![0, 0] S40x256.size inb_S200x256_S40x256_0_0, (Gen.k0_pay2 x3 x8 xs x2)⟩] r f (by omega)).trans (canon_hit (Val := Elt Ideal) 0 inb_S200x256_S40x256_0_0 (Gen.k0_pay2 x3 x8 xs x2) [] r p f hr))))).trans ?_
  exact Payload.pay2_apply x3 x8 xs x2 p f

/-- The first point's output block in strip 1 (rows 40 to 79). -/
theorem outA_row1 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec Ideal S10000x256 .f32) (x1 : Vec Ideal S256x256 .f32) (x2 : Vec Ideal S1x256 .f32) (x3 : Vec Ideal S40x10000 .f32) (x4 : Vec Ideal S40x10000 .f32) (x5 : Vec Ideal S40x10000 .f32) (x6 : Vec Ideal S40x10000 .f32) (x7 : Vec Ideal S40x10000 .f32) (x8 : Vec Ideal S40x10000 .f32) (x9 : Vec Ideal S40x10000 .f32) (x10 : Vec Ideal S40x10000 .f32) (x11 : Vec Ideal S40x10000 .f32) (x12 : Vec Ideal S40x10000 .f32)
    (r : Fin 200) (p : Fin 40) (f : Fin 256) (hr : r.val = 40 + p.val) :
    outA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 (ix2 r f)
      = (∑ k : Fin 10000, (x4 (ix2 p k) + x9 (ix2 p k)) * (∑ j' : Fin 256, x0 (ix2 k j') * x1 (ix2 j' f))) + x2 (ix2 0 f) := by
  have hp := p.isLt
  rw [outA_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12]
  refine ((canon_skip (Val := Elt Ideal) 160 inb_S200x256_S40x256_160_0 (Gen.k0_pay7 x7 x12 (Gen.k0_pay1 x0 x1) x2) [⟨Rect.unit (s := S200x256) ![120, 0] S40x256.size inb_S200x256_S40x256_120_0, (Gen.k0_pay6 x6 x11 (Gen.k0_pay1 x0 x1) x2)⟩, ⟨Rect.unit (s := S200x256) ![80, 0] S40x256.size inb_S200x256_S40x256_80_0, (Gen.k0_pay5 (Gen.k0_pay4 x5 x10) (Gen.k0_pay1 x0 x1) x2)⟩, ⟨Rect.unit (s := S200x256) ![40, 0] S40x256.size inb_S200x256_S40x256_40_0, (Gen.k0_pay3 x4 x9 (Gen.k0_pay1 x0 x1) x2)⟩, ⟨Rect.unit (s := S200x256) ![0, 0] S40x256.size inb_S200x256_S40x256_0_0, (Gen.k0_pay2 x3 x8 (Gen.k0_pay1 x0 x1) x2)⟩] r f (by omega)).trans ((canon_skip (Val := Elt Ideal) 120 inb_S200x256_S40x256_120_0 (Gen.k0_pay6 x6 x11 (Gen.k0_pay1 x0 x1) x2) [⟨Rect.unit (s := S200x256) ![80, 0] S40x256.size inb_S200x256_S40x256_80_0, (Gen.k0_pay5 (Gen.k0_pay4 x5 x10) (Gen.k0_pay1 x0 x1) x2)⟩, ⟨Rect.unit (s := S200x256) ![40, 0] S40x256.size inb_S200x256_S40x256_40_0, (Gen.k0_pay3 x4 x9 (Gen.k0_pay1 x0 x1) x2)⟩, ⟨Rect.unit (s := S200x256) ![0, 0] S40x256.size inb_S200x256_S40x256_0_0, (Gen.k0_pay2 x3 x8 (Gen.k0_pay1 x0 x1) x2)⟩] r f (by omega)).trans ((canon_skip (Val := Elt Ideal) 80 inb_S200x256_S40x256_80_0 (Gen.k0_pay5 (Gen.k0_pay4 x5 x10) (Gen.k0_pay1 x0 x1) x2) [⟨Rect.unit (s := S200x256) ![40, 0] S40x256.size inb_S200x256_S40x256_40_0, (Gen.k0_pay3 x4 x9 (Gen.k0_pay1 x0 x1) x2)⟩, ⟨Rect.unit (s := S200x256) ![0, 0] S40x256.size inb_S200x256_S40x256_0_0, (Gen.k0_pay2 x3 x8 (Gen.k0_pay1 x0 x1) x2)⟩] r f (by omega)).trans (canon_hit (Val := Elt Ideal) 40 inb_S200x256_S40x256_40_0 (Gen.k0_pay3 x4 x9 (Gen.k0_pay1 x0 x1) x2) [⟨Rect.unit (s := S200x256) ![0, 0] S40x256.size inb_S200x256_S40x256_0_0, (Gen.k0_pay2 x3 x8 (Gen.k0_pay1 x0 x1) x2)⟩] r p f hr)))).trans ?_
  refine (Payload.pay3_apply x4 x9 (Gen.k0_pay1 x0 x1) x2 p f).trans ?_
  exact congrArg (· + x2 (ix2 0 f)) (Finset.sum_congr rfl fun k _ => by rw [Payload.pay1_apply])

/-- A later point's output block in strip 1 (rows 40 to 79), the scratch buffer holding `xs`. -/
theorem outB_row1 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : ¬cond0 i) (x0 : Vec Ideal S10000x256 .f32) (x1 : Vec Ideal S256x256 .f32) (x2 : Vec Ideal S1x256 .f32) (x3 : Vec Ideal S40x10000 .f32) (x4 : Vec Ideal S40x10000 .f32) (x5 : Vec Ideal S40x10000 .f32) (x6 : Vec Ideal S40x10000 .f32) (x7 : Vec Ideal S40x10000 .f32) (x8 : Vec Ideal S40x10000 .f32) (x9 : Vec Ideal S40x10000 .f32) (x10 : Vec Ideal S40x10000 .f32) (x11 : Vec Ideal S40x10000 .f32) (x12 : Vec Ideal S40x10000 .f32) (xs : Vec Ideal S10000x256 .bf16)
    (r : Fin 200) (p : Fin 40) (f : Fin 256) (hr : r.val = 40 + p.val) :
    outB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs (ix2 r f)
      = (∑ k : Fin 10000, (x4 (ix2 p k) + x9 (ix2 p k)) * xs (ix2 k f)) + x2 (ix2 0 f) := by
  have hp := p.isLt
  rw [outB_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs]
  refine ((canon_skip (Val := Elt Ideal) 160 inb_S200x256_S40x256_160_0 (Gen.k0_pay7 x7 x12 xs x2) [⟨Rect.unit (s := S200x256) ![120, 0] S40x256.size inb_S200x256_S40x256_120_0, (Gen.k0_pay6 x6 x11 xs x2)⟩, ⟨Rect.unit (s := S200x256) ![80, 0] S40x256.size inb_S200x256_S40x256_80_0, (Gen.k0_pay5 (Gen.k0_pay4 x5 x10) xs x2)⟩, ⟨Rect.unit (s := S200x256) ![40, 0] S40x256.size inb_S200x256_S40x256_40_0, (Gen.k0_pay3 x4 x9 xs x2)⟩, ⟨Rect.unit (s := S200x256) ![0, 0] S40x256.size inb_S200x256_S40x256_0_0, (Gen.k0_pay2 x3 x8 xs x2)⟩] r f (by omega)).trans ((canon_skip (Val := Elt Ideal) 120 inb_S200x256_S40x256_120_0 (Gen.k0_pay6 x6 x11 xs x2) [⟨Rect.unit (s := S200x256) ![80, 0] S40x256.size inb_S200x256_S40x256_80_0, (Gen.k0_pay5 (Gen.k0_pay4 x5 x10) xs x2)⟩, ⟨Rect.unit (s := S200x256) ![40, 0] S40x256.size inb_S200x256_S40x256_40_0, (Gen.k0_pay3 x4 x9 xs x2)⟩, ⟨Rect.unit (s := S200x256) ![0, 0] S40x256.size inb_S200x256_S40x256_0_0, (Gen.k0_pay2 x3 x8 xs x2)⟩] r f (by omega)).trans ((canon_skip (Val := Elt Ideal) 80 inb_S200x256_S40x256_80_0 (Gen.k0_pay5 (Gen.k0_pay4 x5 x10) xs x2) [⟨Rect.unit (s := S200x256) ![40, 0] S40x256.size inb_S200x256_S40x256_40_0, (Gen.k0_pay3 x4 x9 xs x2)⟩, ⟨Rect.unit (s := S200x256) ![0, 0] S40x256.size inb_S200x256_S40x256_0_0, (Gen.k0_pay2 x3 x8 xs x2)⟩] r f (by omega)).trans (canon_hit (Val := Elt Ideal) 40 inb_S200x256_S40x256_40_0 (Gen.k0_pay3 x4 x9 xs x2) [⟨Rect.unit (s := S200x256) ![0, 0] S40x256.size inb_S200x256_S40x256_0_0, (Gen.k0_pay2 x3 x8 xs x2)⟩] r p f hr)))).trans ?_
  exact Payload.pay3_apply x4 x9 xs x2 p f

/-- The first point's output block in strip 2 (rows 80 to 119). -/
theorem outA_row2 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec Ideal S10000x256 .f32) (x1 : Vec Ideal S256x256 .f32) (x2 : Vec Ideal S1x256 .f32) (x3 : Vec Ideal S40x10000 .f32) (x4 : Vec Ideal S40x10000 .f32) (x5 : Vec Ideal S40x10000 .f32) (x6 : Vec Ideal S40x10000 .f32) (x7 : Vec Ideal S40x10000 .f32) (x8 : Vec Ideal S40x10000 .f32) (x9 : Vec Ideal S40x10000 .f32) (x10 : Vec Ideal S40x10000 .f32) (x11 : Vec Ideal S40x10000 .f32) (x12 : Vec Ideal S40x10000 .f32)
    (r : Fin 200) (p : Fin 40) (f : Fin 256) (hr : r.val = 80 + p.val) :
    outA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 (ix2 r f)
      = (∑ k : Fin 10000, (x5 (ix2 p k) + x10 (ix2 p k)) * (∑ j' : Fin 256, x0 (ix2 k j') * x1 (ix2 j' f))) + x2 (ix2 0 f) := by
  have hp := p.isLt
  rw [outA_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12]
  refine ((canon_skip (Val := Elt Ideal) 160 inb_S200x256_S40x256_160_0 (Gen.k0_pay7 x7 x12 (Gen.k0_pay1 x0 x1) x2) [⟨Rect.unit (s := S200x256) ![120, 0] S40x256.size inb_S200x256_S40x256_120_0, (Gen.k0_pay6 x6 x11 (Gen.k0_pay1 x0 x1) x2)⟩, ⟨Rect.unit (s := S200x256) ![80, 0] S40x256.size inb_S200x256_S40x256_80_0, (Gen.k0_pay5 (Gen.k0_pay4 x5 x10) (Gen.k0_pay1 x0 x1) x2)⟩, ⟨Rect.unit (s := S200x256) ![40, 0] S40x256.size inb_S200x256_S40x256_40_0, (Gen.k0_pay3 x4 x9 (Gen.k0_pay1 x0 x1) x2)⟩, ⟨Rect.unit (s := S200x256) ![0, 0] S40x256.size inb_S200x256_S40x256_0_0, (Gen.k0_pay2 x3 x8 (Gen.k0_pay1 x0 x1) x2)⟩] r f (by omega)).trans ((canon_skip (Val := Elt Ideal) 120 inb_S200x256_S40x256_120_0 (Gen.k0_pay6 x6 x11 (Gen.k0_pay1 x0 x1) x2) [⟨Rect.unit (s := S200x256) ![80, 0] S40x256.size inb_S200x256_S40x256_80_0, (Gen.k0_pay5 (Gen.k0_pay4 x5 x10) (Gen.k0_pay1 x0 x1) x2)⟩, ⟨Rect.unit (s := S200x256) ![40, 0] S40x256.size inb_S200x256_S40x256_40_0, (Gen.k0_pay3 x4 x9 (Gen.k0_pay1 x0 x1) x2)⟩, ⟨Rect.unit (s := S200x256) ![0, 0] S40x256.size inb_S200x256_S40x256_0_0, (Gen.k0_pay2 x3 x8 (Gen.k0_pay1 x0 x1) x2)⟩] r f (by omega)).trans (canon_hit (Val := Elt Ideal) 80 inb_S200x256_S40x256_80_0 (Gen.k0_pay5 (Gen.k0_pay4 x5 x10) (Gen.k0_pay1 x0 x1) x2) [⟨Rect.unit (s := S200x256) ![40, 0] S40x256.size inb_S200x256_S40x256_40_0, (Gen.k0_pay3 x4 x9 (Gen.k0_pay1 x0 x1) x2)⟩, ⟨Rect.unit (s := S200x256) ![0, 0] S40x256.size inb_S200x256_S40x256_0_0, (Gen.k0_pay2 x3 x8 (Gen.k0_pay1 x0 x1) x2)⟩] r p f hr))).trans ?_
  refine (Payload.pay5_apply (Gen.k0_pay4 x5 x10) (Gen.k0_pay1 x0 x1) x2 p f).trans ?_
  exact congrArg (· + x2 (ix2 0 f)) (Finset.sum_congr rfl fun k _ => by rw [Payload.pay4_apply, Payload.pay1_apply])

/-- A later point's output block in strip 2 (rows 80 to 119), the scratch buffer holding `xs`. -/
theorem outB_row2 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : ¬cond0 i) (x0 : Vec Ideal S10000x256 .f32) (x1 : Vec Ideal S256x256 .f32) (x2 : Vec Ideal S1x256 .f32) (x3 : Vec Ideal S40x10000 .f32) (x4 : Vec Ideal S40x10000 .f32) (x5 : Vec Ideal S40x10000 .f32) (x6 : Vec Ideal S40x10000 .f32) (x7 : Vec Ideal S40x10000 .f32) (x8 : Vec Ideal S40x10000 .f32) (x9 : Vec Ideal S40x10000 .f32) (x10 : Vec Ideal S40x10000 .f32) (x11 : Vec Ideal S40x10000 .f32) (x12 : Vec Ideal S40x10000 .f32) (xs : Vec Ideal S10000x256 .bf16)
    (r : Fin 200) (p : Fin 40) (f : Fin 256) (hr : r.val = 80 + p.val) :
    outB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs (ix2 r f)
      = (∑ k : Fin 10000, (x5 (ix2 p k) + x10 (ix2 p k)) * xs (ix2 k f)) + x2 (ix2 0 f) := by
  have hp := p.isLt
  rw [outB_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs]
  refine ((canon_skip (Val := Elt Ideal) 160 inb_S200x256_S40x256_160_0 (Gen.k0_pay7 x7 x12 xs x2) [⟨Rect.unit (s := S200x256) ![120, 0] S40x256.size inb_S200x256_S40x256_120_0, (Gen.k0_pay6 x6 x11 xs x2)⟩, ⟨Rect.unit (s := S200x256) ![80, 0] S40x256.size inb_S200x256_S40x256_80_0, (Gen.k0_pay5 (Gen.k0_pay4 x5 x10) xs x2)⟩, ⟨Rect.unit (s := S200x256) ![40, 0] S40x256.size inb_S200x256_S40x256_40_0, (Gen.k0_pay3 x4 x9 xs x2)⟩, ⟨Rect.unit (s := S200x256) ![0, 0] S40x256.size inb_S200x256_S40x256_0_0, (Gen.k0_pay2 x3 x8 xs x2)⟩] r f (by omega)).trans ((canon_skip (Val := Elt Ideal) 120 inb_S200x256_S40x256_120_0 (Gen.k0_pay6 x6 x11 xs x2) [⟨Rect.unit (s := S200x256) ![80, 0] S40x256.size inb_S200x256_S40x256_80_0, (Gen.k0_pay5 (Gen.k0_pay4 x5 x10) xs x2)⟩, ⟨Rect.unit (s := S200x256) ![40, 0] S40x256.size inb_S200x256_S40x256_40_0, (Gen.k0_pay3 x4 x9 xs x2)⟩, ⟨Rect.unit (s := S200x256) ![0, 0] S40x256.size inb_S200x256_S40x256_0_0, (Gen.k0_pay2 x3 x8 xs x2)⟩] r f (by omega)).trans (canon_hit (Val := Elt Ideal) 80 inb_S200x256_S40x256_80_0 (Gen.k0_pay5 (Gen.k0_pay4 x5 x10) xs x2) [⟨Rect.unit (s := S200x256) ![40, 0] S40x256.size inb_S200x256_S40x256_40_0, (Gen.k0_pay3 x4 x9 xs x2)⟩, ⟨Rect.unit (s := S200x256) ![0, 0] S40x256.size inb_S200x256_S40x256_0_0, (Gen.k0_pay2 x3 x8 xs x2)⟩] r p f hr))).trans ?_
  refine (Payload.pay5_apply (Gen.k0_pay4 x5 x10) xs x2 p f).trans ?_
  exact congrArg (· + x2 (ix2 0 f)) (Finset.sum_congr rfl fun k _ => by rw [Payload.pay4_apply])

/-- The first point's output block in strip 3 (rows 120 to 159). -/
theorem outA_row3 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec Ideal S10000x256 .f32) (x1 : Vec Ideal S256x256 .f32) (x2 : Vec Ideal S1x256 .f32) (x3 : Vec Ideal S40x10000 .f32) (x4 : Vec Ideal S40x10000 .f32) (x5 : Vec Ideal S40x10000 .f32) (x6 : Vec Ideal S40x10000 .f32) (x7 : Vec Ideal S40x10000 .f32) (x8 : Vec Ideal S40x10000 .f32) (x9 : Vec Ideal S40x10000 .f32) (x10 : Vec Ideal S40x10000 .f32) (x11 : Vec Ideal S40x10000 .f32) (x12 : Vec Ideal S40x10000 .f32)
    (r : Fin 200) (p : Fin 40) (f : Fin 256) (hr : r.val = 120 + p.val) :
    outA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 (ix2 r f)
      = (∑ k : Fin 10000, (x6 (ix2 p k) + x11 (ix2 p k)) * (∑ j' : Fin 256, x0 (ix2 k j') * x1 (ix2 j' f))) + x2 (ix2 0 f) := by
  have hp := p.isLt
  rw [outA_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12]
  refine ((canon_skip (Val := Elt Ideal) 160 inb_S200x256_S40x256_160_0 (Gen.k0_pay7 x7 x12 (Gen.k0_pay1 x0 x1) x2) [⟨Rect.unit (s := S200x256) ![120, 0] S40x256.size inb_S200x256_S40x256_120_0, (Gen.k0_pay6 x6 x11 (Gen.k0_pay1 x0 x1) x2)⟩, ⟨Rect.unit (s := S200x256) ![80, 0] S40x256.size inb_S200x256_S40x256_80_0, (Gen.k0_pay5 (Gen.k0_pay4 x5 x10) (Gen.k0_pay1 x0 x1) x2)⟩, ⟨Rect.unit (s := S200x256) ![40, 0] S40x256.size inb_S200x256_S40x256_40_0, (Gen.k0_pay3 x4 x9 (Gen.k0_pay1 x0 x1) x2)⟩, ⟨Rect.unit (s := S200x256) ![0, 0] S40x256.size inb_S200x256_S40x256_0_0, (Gen.k0_pay2 x3 x8 (Gen.k0_pay1 x0 x1) x2)⟩] r f (by omega)).trans (canon_hit (Val := Elt Ideal) 120 inb_S200x256_S40x256_120_0 (Gen.k0_pay6 x6 x11 (Gen.k0_pay1 x0 x1) x2) [⟨Rect.unit (s := S200x256) ![80, 0] S40x256.size inb_S200x256_S40x256_80_0, (Gen.k0_pay5 (Gen.k0_pay4 x5 x10) (Gen.k0_pay1 x0 x1) x2)⟩, ⟨Rect.unit (s := S200x256) ![40, 0] S40x256.size inb_S200x256_S40x256_40_0, (Gen.k0_pay3 x4 x9 (Gen.k0_pay1 x0 x1) x2)⟩, ⟨Rect.unit (s := S200x256) ![0, 0] S40x256.size inb_S200x256_S40x256_0_0, (Gen.k0_pay2 x3 x8 (Gen.k0_pay1 x0 x1) x2)⟩] r p f hr)).trans ?_
  refine (Payload.pay6_apply x6 x11 (Gen.k0_pay1 x0 x1) x2 p f).trans ?_
  exact congrArg (· + x2 (ix2 0 f)) (Finset.sum_congr rfl fun k _ => by rw [Payload.pay1_apply])

/-- A later point's output block in strip 3 (rows 120 to 159), the scratch buffer holding `xs`. -/
theorem outB_row3 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : ¬cond0 i) (x0 : Vec Ideal S10000x256 .f32) (x1 : Vec Ideal S256x256 .f32) (x2 : Vec Ideal S1x256 .f32) (x3 : Vec Ideal S40x10000 .f32) (x4 : Vec Ideal S40x10000 .f32) (x5 : Vec Ideal S40x10000 .f32) (x6 : Vec Ideal S40x10000 .f32) (x7 : Vec Ideal S40x10000 .f32) (x8 : Vec Ideal S40x10000 .f32) (x9 : Vec Ideal S40x10000 .f32) (x10 : Vec Ideal S40x10000 .f32) (x11 : Vec Ideal S40x10000 .f32) (x12 : Vec Ideal S40x10000 .f32) (xs : Vec Ideal S10000x256 .bf16)
    (r : Fin 200) (p : Fin 40) (f : Fin 256) (hr : r.val = 120 + p.val) :
    outB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs (ix2 r f)
      = (∑ k : Fin 10000, (x6 (ix2 p k) + x11 (ix2 p k)) * xs (ix2 k f)) + x2 (ix2 0 f) := by
  have hp := p.isLt
  rw [outB_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs]
  refine ((canon_skip (Val := Elt Ideal) 160 inb_S200x256_S40x256_160_0 (Gen.k0_pay7 x7 x12 xs x2) [⟨Rect.unit (s := S200x256) ![120, 0] S40x256.size inb_S200x256_S40x256_120_0, (Gen.k0_pay6 x6 x11 xs x2)⟩, ⟨Rect.unit (s := S200x256) ![80, 0] S40x256.size inb_S200x256_S40x256_80_0, (Gen.k0_pay5 (Gen.k0_pay4 x5 x10) xs x2)⟩, ⟨Rect.unit (s := S200x256) ![40, 0] S40x256.size inb_S200x256_S40x256_40_0, (Gen.k0_pay3 x4 x9 xs x2)⟩, ⟨Rect.unit (s := S200x256) ![0, 0] S40x256.size inb_S200x256_S40x256_0_0, (Gen.k0_pay2 x3 x8 xs x2)⟩] r f (by omega)).trans (canon_hit (Val := Elt Ideal) 120 inb_S200x256_S40x256_120_0 (Gen.k0_pay6 x6 x11 xs x2) [⟨Rect.unit (s := S200x256) ![80, 0] S40x256.size inb_S200x256_S40x256_80_0, (Gen.k0_pay5 (Gen.k0_pay4 x5 x10) xs x2)⟩, ⟨Rect.unit (s := S200x256) ![40, 0] S40x256.size inb_S200x256_S40x256_40_0, (Gen.k0_pay3 x4 x9 xs x2)⟩, ⟨Rect.unit (s := S200x256) ![0, 0] S40x256.size inb_S200x256_S40x256_0_0, (Gen.k0_pay2 x3 x8 xs x2)⟩] r p f hr)).trans ?_
  exact Payload.pay6_apply x6 x11 xs x2 p f

/-- The first point's output block in strip 4 (rows 160 to 199). -/
theorem outA_row4 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : cond0 i) (x0 : Vec Ideal S10000x256 .f32) (x1 : Vec Ideal S256x256 .f32) (x2 : Vec Ideal S1x256 .f32) (x3 : Vec Ideal S40x10000 .f32) (x4 : Vec Ideal S40x10000 .f32) (x5 : Vec Ideal S40x10000 .f32) (x6 : Vec Ideal S40x10000 .f32) (x7 : Vec Ideal S40x10000 .f32) (x8 : Vec Ideal S40x10000 .f32) (x9 : Vec Ideal S40x10000 .f32) (x10 : Vec Ideal S40x10000 .f32) (x11 : Vec Ideal S40x10000 .f32) (x12 : Vec Ideal S40x10000 .f32)
    (r : Fin 200) (p : Fin 40) (f : Fin 256) (hr : r.val = 160 + p.val) :
    outA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 (ix2 r f)
      = (∑ k : Fin 10000, (x7 (ix2 p k) + x12 (ix2 p k)) * (∑ j' : Fin 256, x0 (ix2 k j') * x1 (ix2 j' f))) + x2 (ix2 0 f) := by
  have hp := p.isLt
  rw [outA_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12]
  refine (canon_hit (Val := Elt Ideal) 160 inb_S200x256_S40x256_160_0 (Gen.k0_pay7 x7 x12 (Gen.k0_pay1 x0 x1) x2) [⟨Rect.unit (s := S200x256) ![120, 0] S40x256.size inb_S200x256_S40x256_120_0, (Gen.k0_pay6 x6 x11 (Gen.k0_pay1 x0 x1) x2)⟩, ⟨Rect.unit (s := S200x256) ![80, 0] S40x256.size inb_S200x256_S40x256_80_0, (Gen.k0_pay5 (Gen.k0_pay4 x5 x10) (Gen.k0_pay1 x0 x1) x2)⟩, ⟨Rect.unit (s := S200x256) ![40, 0] S40x256.size inb_S200x256_S40x256_40_0, (Gen.k0_pay3 x4 x9 (Gen.k0_pay1 x0 x1) x2)⟩, ⟨Rect.unit (s := S200x256) ![0, 0] S40x256.size inb_S200x256_S40x256_0_0, (Gen.k0_pay2 x3 x8 (Gen.k0_pay1 x0 x1) x2)⟩] r p f hr).trans ?_
  refine (Payload.pay7_apply x7 x12 (Gen.k0_pay1 x0 x1) x2 p f).trans ?_
  exact congrArg (· + x2 (ix2 0 f)) (Finset.sum_congr rfl fun k _ => by rw [Payload.pay1_apply])

/-- A later point's output block in strip 4 (rows 160 to 199), the scratch buffer holding `xs`. -/
theorem outB_row4 (c : Dev nD) (i : grid0.Coords) (arg1 : Memref sig .tc .vmem S10000x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S40x10000 .f32) (harg11 : arg11.IsWhole) (arg12 : Memref sig .tc .vmem S40x10000 .f32) (harg12 : arg12.IsWhole) (arg13 : Memref sig .tc .vmem S40x10000 .f32) (harg13 : arg13.IsWhole) (arg14 : Memref sig .tc .vmem S200x256 .f32) (harg14 : arg14.IsWhole) (arg15 : Memref sig .tc .vmem S10000x256 .bf16) (harg15 : arg15.IsWhole) (hc0 : ¬cond0 i) (x0 : Vec Ideal S10000x256 .f32) (x1 : Vec Ideal S256x256 .f32) (x2 : Vec Ideal S1x256 .f32) (x3 : Vec Ideal S40x10000 .f32) (x4 : Vec Ideal S40x10000 .f32) (x5 : Vec Ideal S40x10000 .f32) (x6 : Vec Ideal S40x10000 .f32) (x7 : Vec Ideal S40x10000 .f32) (x8 : Vec Ideal S40x10000 .f32) (x9 : Vec Ideal S40x10000 .f32) (x10 : Vec Ideal S40x10000 .f32) (x11 : Vec Ideal S40x10000 .f32) (x12 : Vec Ideal S40x10000 .f32) (xs : Vec Ideal S10000x256 .bf16)
    (r : Fin 200) (p : Fin 40) (f : Fin 256) (hr : r.val = 160 + p.val) :
    outB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs (ix2 r f)
      = (∑ k : Fin 10000, (x7 (ix2 p k) + x12 (ix2 p k)) * xs (ix2 k f)) + x2 (ix2 0 f) := by
  have hp := p.isLt
  rw [outB_eq (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs]
  refine (canon_hit (Val := Elt Ideal) 160 inb_S200x256_S40x256_160_0 (Gen.k0_pay7 x7 x12 xs x2) [⟨Rect.unit (s := S200x256) ![120, 0] S40x256.size inb_S200x256_S40x256_120_0, (Gen.k0_pay6 x6 x11 xs x2)⟩, ⟨Rect.unit (s := S200x256) ![80, 0] S40x256.size inb_S200x256_S40x256_80_0, (Gen.k0_pay5 (Gen.k0_pay4 x5 x10) xs x2)⟩, ⟨Rect.unit (s := S200x256) ![40, 0] S40x256.size inb_S200x256_S40x256_40_0, (Gen.k0_pay3 x4 x9 xs x2)⟩, ⟨Rect.unit (s := S200x256) ![0, 0] S40x256.size inb_S200x256_S40x256_0_0, (Gen.k0_pay2 x3 x8 xs x2)⟩] r p f hr).trans ?_
  exact Payload.pay7_apply x7 x12 xs x2 p f

end Cert.KernelIdeal.Fr

end
-- ==== Proof.KernelIdealFr.Blocks.lean ====
/-
  The windows' blocks read at an index, over the extended reals.

  Where each window's block sits in its array is decided once over the 50 grid points: the vertex matrix, the weight
  matrix and the bias row are whole blocks at the origin; at point `t` the five strips of an adjacency matrix are its rows
  `200 t + 40 j` to `200 t + 40 j + 39` (`j = 0, …, 4`), all its columns; the output block is rows `200 t` to `200 t + 199` of the
  result.  So a block read at `(p, k)` is the array read at the corresponding row and column.  The bias row the region
  finds is the bias vector reshaped to one row by the host line before the region.
-/
import proofs.«112502_g37555194037034_cont_8to1_b_1611_12_alg».proof.Proof.KernelIdealFr.Data
import proofs.«112502_g37555194037034_cont_8to1_b_1611_12_alg».proof.Proof.GcSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Fr

open Cert.KernelIdeal Cert.KernelIdeal.Gen Cert.GcSpec
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable (m : (ℓ : Loc nD τ sig) → Buf (Elt Ideal) ℓ) (ρ : Dev nD → PrngReg)

/-- The bias row as the region finds it: the bias vector reshaped to 1 × 256. -/
theorem V_main_v0_eq (c : Dev nD) : (V m c main_v0 : S1x256.Idx → EReal) = shapeCast S1x256 (m ((c : Thread nD τ).loc main_arg4)) shapeCasts_S256_S1x256 := by
  dsimp only [V, hostOps0]
  after_results
  rfl

theorem V_main_v0_apply (c : Dev nD) (f : Fin 256) : (V m c main_v0 : S1x256.Idx → EReal) (ix2 (0 : Fin 1) f) = m ((c : Thread nD τ).loc main_arg4) (ix1 f) := by
  rw [V_main_v0_eq]
  exact shapeCast_a_1a_apply _ _ 0 f

/-- The printed index maps, decided over the grid. -/
theorem idx_facts : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 5 * t.val + 0
    ∧ win0_3.index t (1 : Fin 2) = 0
    ∧ win0_4.index t (0 : Fin 2) = 5 * t.val + 1
    ∧ win0_4.index t (1 : Fin 2) = 0
    ∧ win0_5.index t (0 : Fin 2) = 5 * t.val + 2
    ∧ win0_5.index t (1 : Fin 2) = 0
    ∧ win0_6.index t (0 : Fin 2) = 5 * t.val + 3
    ∧ win0_6.index t (1 : Fin 2) = 0
    ∧ win0_7.index t (0 : Fin 2) = 5 * t.val + 4
    ∧ win0_7.index t (1 : Fin 2) = 0
    ∧ win0_8.index t (0 : Fin 2) = 5 * t.val + 0
    ∧ win0_8.index t (1 : Fin 2) = 0
    ∧ win0_9.index t (0 : Fin 2) = 5 * t.val + 1
    ∧ win0_9.index t (1 : Fin 2) = 0
    ∧ win0_10.index t (0 : Fin 2) = 5 * t.val + 2
    ∧ win0_10.index t (1 : Fin 2) = 0
    ∧ win0_11.index t (0 : Fin 2) = 5 * t.val + 3
    ∧ win0_11.index t (1 : Fin 2) = 0
    ∧ win0_12.index t (0 : Fin 2) = 5 * t.val + 4
    ∧ win0_12.index t (1 : Fin 2) = 0
    ∧ win0_13.index t (0 : Fin 2) = t.val
    ∧ win0_13.index t (1 : Fin 2) = 0 :=
  (by decide +kernel : ∀ t : Fin grid0.N, _)

/-- The vertex matrix's window is the whole matrix at every point. -/
theorem iblk0_apply (c : Dev nD) (t : Fin cfg0.N) (k : Fin 10000) (j : Fin 256) :
    iblk m c 0 t (ix2 k j) = m ((c : Thread nD τ).loc main_arg0) (ix2 k j) := by
  rw [← V_main_arg0 m c]
  show V m c main_arg0 (((cfg0.win 0).blk t).view.emb (ix2 k j)) = _
  congr 1
  funext a; apply Fin.ext
  have e := idx_facts t
  match a with
  | ⟨0, _⟩ => show win0_0.index t (0 : Fin 2) * 10000 + 1 * k.val = k.val; omega
  | ⟨1, _⟩ => show win0_0.index t (1 : Fin 2) * 256 + 1 * j.val = j.val; omega

/-- The weight matrix's window is the whole matrix at every point. -/
theorem iblk1_apply (c : Dev nD) (t : Fin cfg0.N) (j f : Fin 256) :
    iblk m c 1 t (ix2 j f) = m ((c : Thread nD τ).loc main_arg3) (ix2 j f) := by
  rw [← V_main_arg3 m c]
  show V m c main_arg3 (((cfg0.win 1).blk t).view.emb (ix2 j f)) = _
  congr 1
  funext a; apply Fin.ext
  have e := idx_facts t
  match a with
  | ⟨0, _⟩ => show win0_1.index t (0 : Fin 2) * 256 + 1 * j.val = j.val; omega
  | ⟨1, _⟩ => show win0_1.index t (1 : Fin 2) * 256 + 1 * f.val = f.val; omega

/-- The bias window is the whole bias row at every point: the bias vector. -/
theorem iblk2_apply (c : Dev nD) (t : Fin cfg0.N) (f : Fin 256) :
    iblk m c 2 t (ix2 (0 : Fin 1) f) = m ((c : Thread nD τ).loc main_arg4) (ix1 f) := by
  rw [← V_main_v0_apply m c f]
  show V m c main_v0 (((cfg0.win 2).blk t).view.emb (ix2 (0 : Fin 1) f)) = _
  congr 1
  funext a; apply Fin.ext
  have e := idx_facts t
  match a with
  | ⟨0, _⟩ => show win0_2.index t (0 : Fin 2) * 1 + 1 * 0 = 0; omega
  | ⟨1, _⟩ => show win0_2.index t (1 : Fin 2) * 256 + 1 * f.val = f.val; omega

/-- Window 3's block at point `t` is rows `200 t + 0` to `200 t + 39` of its adjacency matrix. -/
theorem iblk3_apply (c : Dev nD) (t : Fin cfg0.N) (p : Fin 40) (k : Fin 10000) :
    iblk m c 3 t (ix2 p k) = m ((c : Thread nD τ).loc main_arg1) (ix2 ⟨200 * t.val + 40 * 0 + p.val, by have := t.isLt; have : cfg0.N = 50 := N_0; omega⟩ k) := by
  rw [← V_main_arg1 m c]
  show V m c main_arg1 (((cfg0.win 3).blk t).view.emb (ix2 p k)) = _
  congr 1
  funext a; apply Fin.ext
  have e := idx_facts t
  match a with
  | ⟨0, _⟩ => show win0_3.index t (0 : Fin 2) * 40 + 1 * p.val = 200 * t.val + 40 * 0 + p.val; omega
  | ⟨1, _⟩ => show win0_3.index t (1 : Fin 2) * 10000 + 1 * k.val = k.val; omega

/-- Window 4's block at point `t` is rows `200 t + 40` to `200 t + 79` of its adjacency matrix. -/
theorem iblk4_apply (c : Dev nD) (t : Fin cfg0.N) (p : Fin 40) (k : Fin 10000) :
    iblk m c 4 t (ix2 p k) = m ((c : Thread nD τ).loc main_arg1) (ix2 ⟨200 * t.val + 40 * 1 + p.val, by have := t.isLt; have : cfg0.N = 50 := N_0; omega⟩ k) := by
  rw [← V_main_arg1 m c]
  show V m c main_arg1 (((cfg0.win 4).blk t).view.emb (ix2 p k)) = _
  congr 1
  funext a; apply Fin.ext
  have e := idx_facts t
  match a with
  | ⟨0, _⟩ => show win0_4.index t (0 : Fin 2) * 40 + 1 * p.val = 200 * t.val + 40 * 1 + p.val; omega
  | ⟨1, _⟩ => show win0_4.index t (1 : Fin 2) * 10000 + 1 * k.val = k.val; omega

/-- Window 5's block at point `t` is rows `200 t + 80` to `200 t + 119` of its adjacency matrix. -/
theorem iblk5_apply (c : Dev nD) (t : Fin cfg0.N) (p : Fin 40) (k : Fin 10000) :
    iblk m c 5 t (ix2 p k) = m ((c : Thread nD τ).loc main_arg1) (ix2 ⟨200 * t.val + 40 * 2 + p.val, by have := t.isLt; have : cfg0.N = 50 := N_0; omega⟩ k) := by
  rw [← V_main_arg1 m c]
  show V m c main_arg1 (((cfg0.win 5).blk t).view.emb (ix2 p k)) = _
  congr 1
  funext a; apply Fin.ext
  have e := idx_facts t
  match a with
  | ⟨0, _⟩ => show win0_5.index t (0 : Fin 2) * 40 + 1 * p.val = 200 * t.val + 40 * 2 + p.val; omega
  | ⟨1, _⟩ => show win0_5.index t (1 : Fin 2) * 10000 + 1 * k.val = k.val; omega

/-- Window 6's block at point `t` is rows `200 t + 120` to `200 t + 159` of its adjacency matrix. -/
theorem iblk6_apply (c : Dev nD) (t : Fin cfg0.N) (p : Fin 40) (k : Fin 10000) :
    iblk m c 6 t (ix2 p k) = m ((c : Thread nD τ).loc main_arg1) (ix2 ⟨200 * t.val + 40 * 3 + p.val, by have := t.isLt; have : cfg0.N = 50 := N_0; omega⟩ k) := by
  rw [← V_main_arg1 m c]
  show V m c main_arg1 (((cfg0.win 6).blk t).view.emb (ix2 p k)) = _
  congr 1
  funext a; apply Fin.ext
  have e := idx_facts t
  match a with
  | ⟨0, _⟩ => show win0_6.index t (0 : Fin 2) * 40 + 1 * p.val = 200 * t.val + 40 * 3 + p.val; omega
  | ⟨1, _⟩ => show win0_6.index t (1 : Fin 2) * 10000 + 1 * k.val = k.val; omega

/-- Window 7's block at point `t` is rows `200 t + 160` to `200 t + 199` of its adjacency matrix. -/
theorem iblk7_apply (c : Dev nD) (t : Fin cfg0.N) (p : Fin 40) (k : Fin 10000) :
    iblk m c 7 t (ix2 p k) = m ((c : Thread nD τ).loc main_arg1) (ix2 ⟨200 * t.val + 40 * 4 + p.val, by have := t.isLt; have : cfg0.N = 50 := N_0; omega⟩ k) := by
  rw [← V_main_arg1 m c]
  show V m c main_arg1 (((cfg0.win 7).blk t).view.emb (ix2 p k)) = _
  congr 1
  funext a; apply Fin.ext
  have e := idx_facts t
  match a with
  | ⟨0, _⟩ => show win0_7.index t (0 : Fin 2) * 40 + 1 * p.val = 200 * t.val + 40 * 4 + p.val; omega
  | ⟨1, _⟩ => show win0_7.index t (1 : Fin 2) * 10000 + 1 * k.val = k.val; omega

/-- Window 8's block at point `t` is rows `200 t + 0` to `200 t + 39` of its adjacency matrix. -/
theorem iblk8_apply (c : Dev nD) (t : Fin cfg0.N) (p : Fin 40) (k : Fin 10000) :
    iblk m c 8 t (ix2 p k) = m ((c : Thread nD τ).loc main_arg2) (ix2 ⟨200 * t.val + 40 * 0 + p.val, by have := t.isLt; have : cfg0.N = 50 := N_0; omega⟩ k) := by
  rw [← V_main_arg2 m c]
  show V m c main_arg2 (((cfg0.win 8).blk t).view.emb (ix2 p k)) = _
  congr 1
  funext a; apply Fin.ext
  have e := idx_facts t
  match a with
  | ⟨0, _⟩ => show win0_8.index t (0 : Fin 2) * 40 + 1 * p.val = 200 * t.val + 40 * 0 + p.val; omega
  | ⟨1, _⟩ => show win0_8.index t (1 : Fin 2) * 10000 + 1 * k.val = k.val; omega

/-- Window 9's block at point `t` is rows `200 t + 40` to `200 t + 79` of its adjacency matrix. -/
theorem iblk9_apply (c : Dev nD) (t : Fin cfg0.N) (p : Fin 40) (k : Fin 10000) :
    iblk m c 9 t (ix2 p k) = m ((c : Thread nD τ).loc main_arg2) (ix2 ⟨200 * t.val + 40 * 1 + p.val, by have := t.isLt; have : cfg0.N = 50 := N_0; omega⟩ k) := by
  rw [← V_main_arg2 m c]
  show V m c main_arg2 (((cfg0.win 9).blk t).view.emb (ix2 p k)) = _
  congr 1
  funext a; apply Fin.ext
  have e := idx_facts t
  match a with
  | ⟨0, _⟩ => show win0_9.index t (0 : Fin 2) * 40 + 1 * p.val = 200 * t.val + 40 * 1 + p.val; omega
  | ⟨1, _⟩ => show win0_9.index t (1 : Fin 2) * 10000 + 1 * k.val = k.val; omega

/-- Window 10's block at point `t` is rows `200 t + 80` to `200 t + 119` of its adjacency matrix. -/
theorem iblk10_apply (c : Dev nD) (t : Fin cfg0.N) (p : Fin 40) (k : Fin 10000) :
    iblk m c 10 t (ix2 p k) = m ((c : Thread nD τ).loc main_arg2) (ix2 ⟨200 * t.val + 40 * 2 + p.val, by have := t.isLt; have : cfg0.N = 50 := N_0; omega⟩ k) := by
  rw [← V_main_arg2 m c]
  show V m c main_arg2 (((cfg0.win 10).blk t).view.emb (ix2 p k)) = _
  congr 1
  funext a; apply Fin.ext
  have e := idx_facts t
  match a with
  | ⟨0, _⟩ => show win0_10.index t (0 : Fin 2) * 40 + 1 * p.val = 200 * t.val + 40 * 2 + p.val; omega
  | ⟨1, _⟩ => show win0_10.index t (1 : Fin 2) * 10000 + 1 * k.val = k.val; omega

/-- Window 11's block at point `t` is rows `200 t + 120` to `200 t + 159` of its adjacency matrix. -/
theorem iblk11_apply (c : Dev nD) (t : Fin cfg0.N) (p : Fin 40) (k : Fin 10000) :
    iblk m c 11 t (ix2 p k) = m ((c : Thread nD τ).loc main_arg2) (ix2 ⟨200 * t.val + 40 * 3 + p.val, by have := t.isLt; have : cfg0.N = 50 := N_0; omega⟩ k) := by
  rw [← V_main_arg2 m c]
  show V m c main_arg2 (((cfg0.win 11).blk t).view.emb (ix2 p k)) = _
  congr 1
  funext a; apply Fin.ext
  have e := idx_facts t
  match a with
  | ⟨0, _⟩ => show win0_11.index t (0 : Fin 2) * 40 + 1 * p.val = 200 * t.val + 40 * 3 + p.val; omega
  | ⟨1, _⟩ => show win0_11.index t (1 : Fin 2) * 10000 + 1 * k.val = k.val; omega

/-- Window 12's block at point `t` is rows `200 t + 160` to `200 t + 199` of its adjacency matrix. -/
theorem iblk12_apply (c : Dev nD) (t : Fin cfg0.N) (p : Fin 40) (k : Fin 10000) :
    iblk m c 12 t (ix2 p k) = m ((c : Thread nD τ).loc main_arg2) (ix2 ⟨200 * t.val + 40 * 4 + p.val, by have := t.isLt; have : cfg0.N = 50 := N_0; omega⟩ k) := by
  rw [← V_main_arg2 m c]
  show V m c main_arg2 (((cfg0.win 12).blk t).view.emb (ix2 p k)) = _
  congr 1
  funext a; apply Fin.ext
  have e := idx_facts t
  match a with
  | ⟨0, _⟩ => show win0_12.index t (0 : Fin 2) * 40 + 1 * p.val = 200 * t.val + 40 * 4 + p.val; omega
  | ⟨1, _⟩ => show win0_12.index t (1 : Fin 2) * 10000 + 1 * k.val = k.val; omega

/-- The output block at point `t` is rows `200 t` to `200 t + 199` of the result. -/
theorem emb13 (t : Fin cfg0.N) (r : Fin 200) (f : Fin 256) :
    ((cfg0.win 13).blk t).view.emb (ix2 r f) = ix2 (⟨200 * t.val + r.val, by have := t.isLt; have : cfg0.N = 50 := N_0; omega⟩ : Fin 10000) f := by
  funext a; apply Fin.ext
  have e := idx_facts t
  match a with
  | ⟨0, _⟩ => show win0_13.index t (0 : Fin 2) * 200 + 1 * r.val = 200 * t.val + r.val; omega
  | ⟨1, _⟩ => show win0_13.index t (1 : Fin 2) * 256 + 1 * f.val = f.val; omega

/-- An index of the result is in point `t`'s block iff each coordinate is in the block's range on its axis. -/
theorem mem_blk13 (t : Fin cfg0.N) (i : S10000x256.Idx) :
    i ∈ ((cfg0.win 13).blk t).view.set ↔ ∀ a : Fin 2, win0_13.index t a * S200x256.size a ≤ (i a).val ∧ (i a).val < win0_13.index t a * S200x256.size a + S200x256.size a := by
  show i ∈ ((View.whole main_v1).slice (win0_13.rect t)).set ↔ _
  rw [View.set_slice_whole, Rect.mem_set_unit]
  exact Iff.rfl

/-- Every row of the result is in the block of the point `row / 200`, which is written back. -/
theorem cover13 (i : S10000x256.Idx) : ∃ t : Fin cfg0.N, (cfg0.win 13).flush t = true ∧ i ∈ ((cfg0.win 13).blk t).view.set := by
  have hi0 : (i 0).val < 10000 := (i 0).isLt
  have hi1 : (i 1).val < 256 := (i 1).isLt
  have hN : cfg0.N = 50 := N_0
  obtain ⟨t, ht⟩ : ∃ t : Fin cfg0.N, t.val = (i 0).val / 200 := ⟨⟨(i 0).val / 200, by omega⟩, rfl⟩
  refine ⟨t, flush0_13 t, ?_⟩
  rw [mem_blk13]
  have e := idx_facts t
  intro a
  match a with
  | ⟨0, _⟩ => show win0_13.index t (0 : Fin 2) * 200 ≤ (i 0).val ∧ (i 0).val < win0_13.index t (0 : Fin 2) * 200 + 200; omega
  | ⟨1, _⟩ => show win0_13.index t (1 : Fin 2) * 256 ≤ (i 1).val ∧ (i 1).val < win0_13.index t (1 : Fin 2) * 256 + 256; omega

end Cert.KernelIdeal.Fr

end
-- ==== Proof.KernelIdealFr.Value.lean ====
/-
  What the kernel's result array holds after the run, over the extended reals: the fused layer `(A₁ + A₂) · (V · W) + b`
  of the argument arrays, entry by entry.

  From the first point on the scratch buffer holds the support `V · W` (the first point's stored payload read at an
  index, its two blocks the whole vertex and weight matrices).  At every point each of the five strips of the output
  block is, row by row, the sum over `k` of `(A₁ + A₂)[row, k] · support[k, column]` plus the bias, the row being
  `200 t + 40 j + p` — at the first point with the support as just computed, at a later point with the scratch's contents.
  So what point `t` writes back is block `t` of the fused layer; the 50 blocks tile the result; hence the whole array.
-/
import proofs.«112502_g37555194037034_cont_8to1_b_1611_12_alg».proof.Proof.KernelIdealFr.Frame
import proofs.«112502_g37555194037034_cont_8to1_b_1611_12_alg».proof.Proof.KernelIdealFr.Pieces
import proofs.«112502_g37555194037034_cont_8to1_b_1611_12_alg».proof.Proof.KernelIdealFr.Blocks
import proofs.«112502_g37555194037034_cont_8to1_b_1611_12_alg».proof.Proof.GcSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Fr

open Cert.KernelIdeal Cert.KernelIdeal.Gen Cert.GcSpec
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable (m : (ℓ : Loc nD τ sig) → Buf (Elt Ideal) ℓ) (ρ : Dev nD → PrngReg)

/-- The fused layer of the argument arrays as launched. -/
def G (c : Dev nD) : S10000x256.Idx → EReal :=
  fused (m ((c : Thread nD τ).loc main_arg0)) (m ((c : Thread nD τ).loc main_arg1)) (m ((c : Thread nD τ).loc main_arg2)) (m ((c : Thread nD τ).loc main_arg3)) (m ((c : Thread nD τ).loc main_arg4))

/-- From the first point on the scratch holds the support. -/
theorem sc0_apply (c : Dev nD) (k : Fin 10000) (f : Fin 256) :
    sc0 m c (ix2 k f) = support (m ((c : Thread nD τ).loc main_arg0)) (m ((c : Thread nD τ).loc main_arg3)) k f := by
  unfold sc0
  rw [scA_eq, Cert.KernelIdeal.Payload.pay1_apply]
  simp only [iblk0_apply, iblk1_apply]
  rfl

/-- Strip 0 of the output block at point `t` (rows `0` to `39` of the block) is the fused layer at rows `200 t + 0` to `200 t + 39`. -/
theorem outAt_row0 (c : Dev nD) (t : Fin cfg0.N) (r : Fin 200) (p : Fin 40) (f : Fin 256) (hr : r.val = 0 + p.val) :
    outAt m c t (ix2 r f) = G m c (ix2 (⟨200 * t.val + r.val, by have := t.isLt; have : cfg0.N = 50 := N_0; omega⟩ : Fin 10000) f) := by
  have hN : t.val < 50 := lt_of_lt_of_eq t.isLt (show cfg0.N = 50 from N_0)
  have h2 : 200 * t.val + r.val < 10000 := by omega
  have hR : ∀ h1, (⟨200 * t.val + 40 * 0 + p.val, h1⟩ : Fin 10000) = ⟨200 * t.val + r.val, h2⟩ := fun _ =>
    Fin.ext (by show 200 * t.val + 40 * 0 + p.val = 200 * t.val + r.val; omega)
  by_cases h0 : t.val % 50 = 0
  · rw [outAt_A m c t h0]
    refine (outA_row0 c _ _ _ _ _ _ _ _ _ _ _ _ _ _ _ _ _ _ _ _ _ _ _ _ _ _ _ _ _ _ _ _ _ _ _ _ _ _ _ _ _ _ _ _ _ r p f hr).trans ?_
    simp only [iblk0_apply, iblk1_apply, iblk2_apply, iblk3_apply, iblk8_apply, hR]
    rfl
  · rw [outAt_B m c t h0]
    refine (outB_row0 c _ _ _ _ _ _ _ _ _ _ _ _ _ _ _ _ _ _ _ _ _ _ _ _ _ _ _ _ _ _ _ _ _ _ _ _ _ _ _ _ _ _ _ _ _ _ r p f hr).trans ?_
    simp only [iblk2_apply, iblk3_apply, iblk8_apply, sc0_apply, hR]
    rfl

/-- Strip 1 of the output block at point `t` (rows `40` to `79` of the block) is the fused layer at rows `200 t + 40` to `200 t + 79`. -/
theorem outAt_row1 (c : Dev nD) (t : Fin cfg0.N) (r : Fin 200) (p : Fin 40) (f : Fin 256) (hr : r.val = 40 + p.val) :
    outAt m c t (ix2 r f) = G m c (ix2 (⟨200 * t.val + r.val, by have := t.isLt; have : cfg0.N = 50 := N_0; omega⟩ : Fin 10000) f) := by
  have hN : t.val < 50 := lt_of_lt_of_eq t.isLt (show cfg0.N = 50 from N_0)
  have h2 : 200 * t.val + r.val < 10000 := by omega
  have hR : ∀ h1, (⟨200 * t.val + 40 * 1 + p.val, h1⟩ : Fin 10000) = ⟨200 * t.val + r.val, h2⟩ := fun _ =>
    Fin.ext (by show 200 * t.val + 40 * 1 + p.val = 200 * t.val + r.val; omega)
  by_cases h0 : t.val % 50 = 0
  · rw [outAt_A m c t h0]
    refine (outA_row1 c _ _ _ _ _ _ _ _ _ _ _ _ _ _ _ _ _ _ _ _ _ _ _ _ _ _ _ _ _ _ _ _ _ _ _ _ _ _ _ _ _ _ _ _ _ r p f hr).trans ?_
    simp only [iblk0_apply, iblk1_apply, iblk2_apply, iblk4_apply, iblk9_apply, hR]
    rfl
  · rw [outAt_B m c t h0]
    refine (outB_row1 c _ _ _ _ _ _ _ _ _ _ _ _ _ _ _ _ _ _ _ _ _ _ _ _ _ _ _ _ _ _ _ _ _ _ _ _ _ _ _ _ _ _ _ _ _ _ r p f hr).trans ?_
    simp only [iblk2_apply, iblk4_apply, iblk9_apply, sc0_apply, hR]
    rfl

/-- Strip 2 of the output block at point `t` (rows `80` to `119` of the block) is the fused layer at rows `200 t + 80` to `200 t + 119`. -/
theorem outAt_row2 (c : Dev nD) (t : Fin cfg0.N) (r : Fin 200) (p : Fin 40) (f : Fin 256) (hr : r.val = 80 + p.val) :
    outAt m c t (ix2 r f) = G m c (ix2 (⟨200 * t.val + r.val, by have := t.isLt; have : cfg0.N = 50 := N_0; omega⟩ : Fin 10000) f) := by
  have hN : t.val < 50 := lt_of_lt_of_eq t.isLt (show cfg0.N = 50 from N_0)
  have h2 : 200 * t.val + r.val < 10000 := by omega
  have hR : ∀ h1, (⟨200 * t.val + 40 * 2 + p.val, h1⟩ : Fin 10000) = ⟨200 * t.val + r.val, h2⟩ := fun _ =>
    Fin.ext (by show 200 * t.val + 40 * 2 + p.val = 200 * t.val + r.val; omega)
  by_cases h0 : t.val % 50 = 0
  · rw [outAt_A m c t h0]
    refine (outA_row2 c _ _ _ _ _ _ _ _ _ _ _ _ _ _ _ _ _ _ _ _ _ _ _ _ _ _ _ _ _ _ _ _ _ _ _ _ _ _ _ _ _ _ _ _ _ r p f hr).trans ?_
    simp only [iblk0_apply, iblk1_apply, iblk2_apply, iblk5_apply, iblk10_apply, hR]
    rfl
  · rw [outAt_B m c t h0]
    refine (outB_row2 c _ _ _ _ _ _ _ _ _ _ _ _ _ _ _ _ _ _ _ _ _ _ _ _ _ _ _ _ _ _ _ _ _ _ _ _ _ _ _ _ _ _ _ _ _ _ r p f hr).trans ?_
    simp only [iblk2_apply, iblk5_apply, iblk10_apply, sc0_apply, hR]
    rfl

/-- Strip 3 of the output block at point `t` (rows `120` to `159` of the block) is the fused layer at rows `200 t + 120` to `200 t + 159`. -/
theorem outAt_row3 (c : Dev nD) (t : Fin cfg0.N) (r : Fin 200) (p : Fin 40) (f : Fin 256) (hr : r.val = 120 + p.val) :
    outAt m c t (ix2 r f) = G m c (ix2 (⟨200 * t.val + r.val, by have := t.isLt; have : cfg0.N = 50 := N_0; omega⟩ : Fin 10000) f) := by
  have hN : t.val < 50 := lt_of_lt_of_eq t.isLt (show cfg0.N = 50 from N_0)
  have h2 : 200 * t.val + r.val < 10000 := by omega
  have hR : ∀ h1, (⟨200 * t.val + 40 * 3 + p.val, h1⟩ : Fin 10000) = ⟨200 * t.val + r.val, h2⟩ := fun _ =>
    Fin.ext (by show 200 * t.val + 40 * 3 + p.val = 200 * t.val + r.val; omega)
  by_cases h0 : t.val % 50 = 0
  · rw [outAt_A m c t h0]
    refine (outA_row3 c _ _ _ _ _ _ _ _ _ _ _ _ _ _ _ _ _ _ _ _ _ _ _ _ _ _ _ _ _ _ _ _ _ _ _ _ _ _ _ _ _ _ _ _ _ r p f hr).trans ?_
    simp only [iblk0_apply, iblk1_apply, iblk2_apply, iblk6_apply, iblk11_apply, hR]
    rfl
  · rw [outAt_B m c t h0]
    refine (outB_row3 c _ _ _ _ _ _ _ _ _ _ _ _ _ _ _ _ _ _ _ _ _ _ _ _ _ _ _ _ _ _ _ _ _ _ _ _ _ _ _ _ _ _ _ _ _ _ r p f hr).trans ?_
    simp only [iblk2_apply, iblk6_apply, iblk11_apply, sc0_apply, hR]
    rfl

/-- Strip 4 of the output block at point `t` (rows `160` to `199` of the block) is the fused layer at rows `200 t + 160` to `200 t + 199`. -/
theorem outAt_row4 (c : Dev nD) (t : Fin cfg0.N) (r : Fin 200) (p : Fin 40) (f : Fin 256) (hr : r.val = 160 + p.val) :
    outAt m c t (ix2 r f) = G m c (ix2 (⟨200 * t.val + r.val, by have := t.isLt; have : cfg0.N = 50 := N_0; omega⟩ : Fin 10000) f) := by
  have hN : t.val < 50 := lt_of_lt_of_eq t.isLt (show cfg0.N = 50 from N_0)
  have h2 : 200 * t.val + r.val < 10000 := by omega
  have hR : ∀ h1, (⟨200 * t.val + 40 * 4 + p.val, h1⟩ : Fin 10000) = ⟨200 * t.val + r.val, h2⟩ := fun _ =>
    Fin.ext (by show 200 * t.val + 40 * 4 + p.val = 200 * t.val + r.val; omega)
  by_cases h0 : t.val % 50 = 0
  · rw [outAt_A m c t h0]
    refine (outA_row4 c _ _ _ _ _ _ _ _ _ _ _ _ _ _ _ _ _ _ _ _ _ _ _ _ _ _ _ _ _ _ _ _ _ _ _ _ _ _ _ _ _ _ _ _ _ r p f hr).trans ?_
    simp only [iblk0_apply, iblk1_apply, iblk2_apply, iblk7_apply, iblk12_apply, hR]
    rfl
  · rw [outAt_B m c t h0]
    refine (outB_row4 c _ _ _ _ _ _ _ _ _ _ _ _ _ _ _ _ _ _ _ _ _ _ _ _ _ _ _ _ _ _ _ _ _ _ _ _ _ _ _ _ _ _ _ _ _ _ r p f hr).trans ?_
    simp only [iblk2_apply, iblk7_apply, iblk12_apply, sc0_apply, hR]
    rfl

/-- What point `t` writes back is block `t` of the fused layer. -/
theorem flushed13_eq (c : Dev nD) (t : Fin cfg0.N) :
    (dats m 0 c).flushed 13 t = ((cfg0.win 13).blk t).view.read (Elt Ideal) (G m c) := by
  show (cfg0.win 13).cut (grid0.coords t) ((dats m 0 c).after 13 t) = _
  rw [after13]
  refine funext fun (y : S200x256.Idx) => ?_
  obtain ⟨r, f, rfl⟩ : ∃ (r : Fin 200) (f : Fin 256), y = ix2 r f := ⟨y 0, y 1, eq_ix2 y⟩
  show outAt m c t (ix2 r f) = G m c (((cfg0.win 13).blk t).view.emb (ix2 r f))
  rw [emb13]
  have hr : r.val < 200 := r.isLt
  rcases (by omega : r.val < 40 ∨ (40 ≤ r.val ∧ r.val < 80) ∨ (80 ≤ r.val ∧ r.val < 120) ∨ (120 ≤ r.val ∧ r.val < 160) ∨ 160 ≤ r.val) with h | h | h | h | h
  · exact outAt_row0 m c t r ⟨r.val - 0, by omega⟩ f (by show r.val = 0 + (r.val - 0); omega)
  · exact outAt_row1 m c t r ⟨r.val - 40, by omega⟩ f (by show r.val = 40 + (r.val - 40); omega)
  · exact outAt_row2 m c t r ⟨r.val - 80, by omega⟩ f (by show r.val = 80 + (r.val - 80); omega)
  · exact outAt_row3 m c t r ⟨r.val - 120, by omega⟩ f (by show r.val = 120 + (r.val - 120); omega)
  · exact outAt_row4 m c t r ⟨r.val - 160, by omega⟩ f (by show r.val = 160 + (r.val - 160); omega)

/-- The result array after the run is the fused layer. -/
theorem final13 (c : Dev nD) : (dats m 0 c).arrAt 13 cfg0.N = G m c :=
  (dats m 0 c).arrAt_eq_of_cover 13 (G m c) (fun t _ => flushed13_eq m c t) cover13

/-- The run, read: the result array ends at the fused layer of the arguments, the arguments unchanged. -/
theorem value_run : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 13).trans (final13 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 8).trans (((dats m 0 c).arrAt_in 8 rfl _).trans ((A_eq m c 8).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c)⟩) (run_main m ρ)

end Cert.KernelIdeal.Fr

end
-- ==== Proof.GcReference.lean ====
/-
  The reference program computes the two-product form of the graph-convolution layer.

  Read one operation at a time, the reference forms the support `V · W` by one contraction, the two products
  `A₁ · S` and `A₂ · S` by two more, adds them, and adds the bias broadcast along the rows.  Each contraction at an
  index is the sum over the contracted coordinate of the left operand at (row, k) times the right operand at
  (k, column); the two broadcasts together read the bias at the column.  Written with indices built from coordinates,
  that is the specification's `twoProducts`, entry by entry.
-/
import proofs.«112502_g37555194037034_cont_8to1_b_1611_12_alg».proof.Proof.Gen.ReferenceIdeal.Read
import proofs.«112502_g37555194037034_cont_8to1_b_1611_12_alg».proof.Proof.GcSpec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.GcSpec

/-- The support contraction reads the vertex matrix at (row, `k`). -/
theorem lidx0 (p : Fin 10000) (q k : Fin 256) : Read.lidx_main_v0 (ix2 p q) k = ix2 p k :=
  funext fun a => Fin.ext (by match a with | ⟨0, _⟩ => rfl | ⟨1, _⟩ => rfl)
/-- The support contraction reads the weight matrix at (`k`, column). -/
theorem ridx0 (p : Fin 10000) (q k : Fin 256) : Read.ridx_main_v0 (ix2 p q) k = ix2 k q :=
  funext fun a => Fin.ext (by match a with | ⟨0, _⟩ => rfl | ⟨1, _⟩ => rfl)
/-- The first product reads its adjacency matrix at (row, `k`). -/
theorem lidx1 (p : Fin 10000) (q : Fin 256) (k : Fin 10000) : Read.lidx_main_v1 (ix2 p q) k = ix2 p k :=
  funext fun a => Fin.ext (by match a with | ⟨0, _⟩ => rfl | ⟨1, _⟩ => rfl)
/-- The first product reads the support at (`k`, column). -/
theorem ridx1 (p : Fin 10000) (q : Fin 256) (k : Fin 10000) : Read.ridx_main_v1 (ix2 p q) k = ix2 k q :=
  funext fun a => Fin.ext (by match a with | ⟨0, _⟩ => rfl | ⟨1, _⟩ => rfl)
/-- The second product reads its adjacency matrix at (row, `k`). -/
theorem lidx2 (p : Fin 10000) (q : Fin 256) (k : Fin 10000) : Read.lidx_main_v2 (ix2 p q) k = ix2 p k :=
  funext fun a => Fin.ext (by match a with | ⟨0, _⟩ => rfl | ⟨1, _⟩ => rfl)
/-- The second product reads the support at (`k`, column). -/
theorem ridx2 (p : Fin 10000) (q : Fin 256) (k : Fin 10000) : Read.ridx_main_v2 (ix2 p q) k = ix2 k q :=
  funext fun a => Fin.ext (by match a with | ⟨0, _⟩ => rfl | ⟨1, _⟩ => rfl)
/-- The two broadcasts together read the bias at the column. -/
theorem idx45 (p : Fin 10000) (q : Fin 256) : Read.idx_main_v4 (Read.idx_main_v5 (ix2 p q)) = ix1 q :=
  funext fun a => Fin.ext (by match a with | ⟨0, _⟩ => rfl)

/-- The support stage at (`k`, `f`) is the specification's support. -/
theorem val_v0_support (x0 : (⟨S10000x256, .f32⟩ : BufTy).Contents (Elt Ideal))
    (x3 : (⟨S256x256, .f32⟩ : BufTy).Contents (Elt Ideal)) (k : Fin 10000) (f : Fin 256) :
    Read.val_main_v0 (F := Ideal) x0 x3 (ix2 k f) = support x0 x3 k f := by
  rw [Read.val_main_v0_apply]
  unfold support
  refine Finset.sum_congr rfl fun j _ => ?_
  rw [lidx0, ridx0]

/-- The reference's last stage is the two-product layer. -/
theorem val_main_v6_eq_twoProducts (x0 : (⟨S10000x256, .f32⟩ : BufTy).Contents (Elt Ideal))
    (x1 x2 : (⟨S10000x10000, .f32⟩ : BufTy).Contents (Elt Ideal))
    (x3 : (⟨S256x256, .f32⟩ : BufTy).Contents (Elt Ideal)) (x4 : (⟨S256, .f32⟩ : BufTy).Contents (Elt Ideal)) :
    Read.val_main_v6 (F := Ideal) x0 x1 x2 x3 x4 = twoProducts x0 x1 x2 x3 x4 := by
  funext i
  obtain ⟨p, q, rfl⟩ : ∃ (p : Fin 10000) (q : Fin 256), i = ix2 p q := ⟨i 0, i 1, eq_ix2 i⟩
  rw [Read.val_main_v6_apply, Read.val_main_v3_apply, Read.val_main_v1_apply, Read.val_main_v2_apply,
    Read.val_main_v5_apply, Read.val_main_v4_apply, idx45]
  simp only [lidx1, ridx1, lidx2, ridx2, val_v0_support, Ideal.addf_def]
  rfl

/-- The term the reference's run leaves in its result, as a function of the five arguments, is the two-product
    layer. -/
theorem reference_eq (x0 : (⟨S10000x256, .f32⟩ : BufTy).Contents (Elt Ideal))
    (x1 x2 : (⟨S10000x10000, .f32⟩ : BufTy).Contents (Elt Ideal))
    (x3 : (⟨S256x256, .f32⟩ : BufTy).Contents (Elt Ideal)) (x4 : (⟨S256, .f32⟩ : BufTy).Contents (Elt Ideal)) :
    addf (F := Ideal) (φ := .f32) (addf (F := Ideal) (φ := .f32) (Host.dotGeneral (F := Ideal) (φ₁ := .f32) (φ₂ := .f32) dot_S10000x10000_S10000x256_S10000x256_1_0_0_1_n_n none (x1) (Host.dotGeneral (F := Ideal) (φ₁ := .f32) (φ₂ := .f32) dot_S10000x256_S256x256_S10000x256_1_0_0_1_n_n none (x0) (x3))) (Host.dotGeneral (F := Ideal) (φ₁ := .f32) (φ₂ := .f32) dot_S10000x10000_S10000x256_S10000x256_1_0_0_1_n_n none (x2) (Host.dotGeneral (F := Ideal) (φ₁ := .f32) (φ₂ := .f32) dot_S10000x256_S256x256_S10000x256_1_0_0_1_n_n none (x0) (x3)))) (broadcastInDim S10000x256 ![0, 1] bcast_S1x256_S10000x256_0_1 (broadcastInDim S1x256 ![1] bcast_S256_S1x256_1 (x4)))
      = twoProducts x0 x1 x2 x3 x4 :=
  (Read.val_main_v6_eq (F := Ideal) x0 x1 x2 x3 x4).trans (val_main_v6_eq_twoProducts x0 x1 x2 x3 x4)

/-- The reference's run, restated: every weakly fair execution terminates with the result holding the two-product
    layer of the five argument arrays as they were at launch, and the arguments unchanged. -/
theorem run_twoProducts (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = twoProducts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨by rw [(h c).1, reference_eq], (h c).2⟩)
    (Cert.ReferenceIdeal.Value.run (F := Ideal) m ρ)

end Cert.ReferenceIdeal.RefValue

end
-- ==== Proof.GcAlgebra.lean ====
/-
  The algebra of the graph-convolution layer: the fused form `(A₁ + A₂) · S + b` and the two-product form
  `A₁ · S + A₂ · S + b` agree entry by entry when the four matrices have real entries.

  On the extended reals the law `(x + y) · s = x · s + y · s` holds whenever `x`, `y`, `s` are real.  The support
  `S = V · W` is real because each entry is a finite sum of products of reals.  With that, each summand of the fused
  sum splits, and a finite sum of sums is the sum of the two sums (addition on the extended reals is commutative and
  associative).  The bias is added last on both sides and is never inspected.
-/
import proofs.«112502_g37555194037034_cont_8to1_b_1611_12_alg».proof.Proof.GcSpec

noncomputable section

namespace Cert.GcSpec

open Idealize.ShloMosaic Idealize.ShloMosaic.ValueIdx

/-- A finite sum of reals, read in the extended reals, is the sum of the summands read there. -/
theorem coe_finset_sum {ι : Type*} (s : Finset ι) (g : ι → ℝ) :
    ((∑ j ∈ s, g j : ℝ) : EReal) = ∑ j ∈ s, (g j : EReal) := by
  classical
  induction s using Finset.induction_on with
  | empty => simp
  | insert a s ha ih => rw [Finset.sum_insert ha, Finset.sum_insert ha, EReal.coe_add, ih]

/-- Every entry of the support `V · W` is real when the entries of `V` and `W` are. -/
theorem support_real {V : SNF.Idx → EReal} {W : SFF.Idx → EReal} (hV : AllReal V) (hW : AllReal W)
    (k : Fin 10000) (f : Fin 256) : ∃ r : ℝ, support V W k f = (r : EReal) := by
  choose v hv using hV
  choose w hw using hW
  refine ⟨∑ j : Fin 256, v (ix2 k j) * w (ix2 j f), ?_⟩
  unfold support
  rw [coe_finset_sum]
  refine Finset.sum_congr rfl (fun j _ => ?_)
  rw [hv, hw, EReal.coe_mul]

/-- For real `x`, `y`, `s` the product distributes over the sum, also when read in the extended reals. -/
theorem coe_add_mul (x y s : ℝ) :
    ((x : EReal) + (y : EReal)) * (s : EReal) = (x : EReal) * (s : EReal) + (y : EReal) * (s : EReal) := by
  rw [← EReal.coe_add, ← EReal.coe_mul, ← EReal.coe_mul, ← EReal.coe_mul, ← EReal.coe_add, add_mul]

/-- The fused layer equals the two-product layer when `V`, `W`, `A₁`, `A₂` have real entries. -/
theorem fused_eq_twoProducts {V : SNF.Idx → EReal} {A1 A2 : SNN.Idx → EReal} {W : SFF.Idx → EReal}
    {b : SF.Idx → EReal} (hV : AllReal V) (hW : AllReal W) (h1 : AllReal A1) (h2 : AllReal A2) :
    fused V A1 A2 W b = twoProducts V A1 A2 W b := by
  funext i
  unfold fused twoProducts
  congr 1
  rw [← Finset.sum_add_distrib]
  refine Finset.sum_congr rfl (fun k _ => ?_)
  obtain ⟨s, hs⟩ := support_real hV hW k (i 1)
  obtain ⟨x, hx⟩ := h1 (ix2 (i 0) k)
  obtain ⟨y, hy⟩ := h2 (ix2 (i 0) k)
  rw [hs, hx, hy, coe_add_mul]

end Cert.GcSpec

end
-- ==== Proof.GcFinite.lean ====
/-
  From the precondition to "every entry is a real number".

  The precondition is the conjunction, over the five argument arrays, of "every entry `x` satisfies `|x| < +∞`",
  where `|x|` is `max x (-x)` on the extended reals and `+∞` is written as the single-precision word `0x7F800000`.
  A conjunction of one-bit words is 1 only when each is; a reduction by "and" over a whole array into one word is 1 only
  when every element is.  An extended real whose absolute value is below `+∞` is neither infinity, so it is a real.
-/
import proofs.«112502_g37555194037034_cont_8to1_b_1611_12_alg».proof.Pre_finite_inputs
import proofs.«112502_g37555194037034_cont_8to1_b_1611_12_alg».proof.Proof.GcSpec
import Idealize.ShloMosaic.Lib.ReduceAll

noncomputable section

namespace Cert.GcFinite

open Idealize.ShloMosaic Idealize.ShloMosaic.ValueIdx Cert.GcSpec Cert.Pre_finite_inputs

/-- The scalar shape has one index. -/
instance : Subsingleton Cert.Pre_finite_inputs.S_.Idx := ⟨fun a b => funext fun d => d.elim0⟩

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have h' : BitVec.ofBool (decide (max x (-x) < ⊤)) = 1#1 := h
  have hlt : max x (-x) < ⊤ := by
    by_contra hn
    rw [decide_eq_false hn] at h'
    exact absurd h' (by decide)
  induction x using EReal.rec with
  | bot => simp at hlt
  | coe r => exact ⟨r, rfl⟩
  | top => simp at hlt

variable [Cert.Pre_finite_inputs.Facts]

/-- Under the precondition every entry of each of the five argument arrays is a real number. -/
theorem allReal_of_pre (x0 : FVec Ideal S10000x256 .f32) (x1 x2 : FVec Ideal S10000x10000 .f32)
    (x3 : FVec Ideal S256x256 .f32) (x4 : FVec Ideal S256 .f32)
    (h : Cert.Pre_finite_inputs.fn (F := Ideal) x0 x1 x2 x3 x4 = (fun _ => 1#1)) :
    AllReal (s := SNF) x0 ∧ AllReal (s := SNN) x1 ∧ AllReal (s := SNN) x2 ∧ AllReal (s := SFF) x3
      ∧ AllReal (s := SF) x4 := by
  have h0 := congrFun h ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun i => real_of_abs_lt_inf _ (Host.reduce_andi_all _ _ _ _ ix0 e0 i),
    fun i => real_of_abs_lt_inf _ (Host.reduce_andi_all _ _ _ _ ix0 e1 i),
    fun i => real_of_abs_lt_inf _ (Host.reduce_andi_all _ _ _ _ ix0 e2 i),
    fun i => real_of_abs_lt_inf _ (Host.reduce_andi_all _ _ _ _ ix0 e3 i),
    fun i => real_of_abs_lt_inf _ (Host.reduce_andi_all _ _ _ _ ix0 e4 i)⟩

end Cert.GcFinite

end
-- ==== Proof.lean ====
/-
  The certificate of the graph-convolution layer kernel against its reference.

  The kernel computes, on a 50-point pipelined grid, `out = (A₁ + A₂) · S + b` with the support `S = V · W` formed once, at the
  first grid point, and kept in a scratch buffer; the reference computes `A₁ · S + A₂ · S + b` with `S = V · W`.  Read over the
  extended reals (a change of float format is the identity, the matrix unit's product into a zero accumulator is the plain
  sum), the two results are the same function of the arguments whenever every entry of `V`, `W`, `A₁`, `A₂` is a real
  number — which the precondition, every float input finite, says: `(x + y) · s = x · s + y · s` holds for reals and can fail
  at infinities.

  The three frames: the reference is a straight line of host operations, and its frame is its run with the result
  dropped.  The kernel's two adjacency operands are each handed to it through five input windows, so each of those two
  arrays is dealt among five windows at five parts of the full share; with that, the pipelined region is launched like
  any one-region kernel that carries a scratch buffer between grid points: at the first point the body fills the scratch,
  at every later point it finds it as the first point left it.  The same text proves the frame of the program as
  printed and of its idealization (they are one program read at two instances).  The ideal pass rewrote nothing, so
  the idealization is the program's own text and that conjunct is trivial.
-/
import proofs.«112502_g37555194037034_cont_8to1_b_1611_12_alg».proof.Defs
import proofs.«112502_g37555194037034_cont_8to1_b_1611_12_alg».proof.Proof.Gen.Kernel
import proofs.«112502_g37555194037034_cont_8to1_b_1611_12_alg».proof.Proof.Gen.KernelIdeal
import proofs.«112502_g37555194037034_cont_8to1_b_1611_12_alg».proof.Proof.Gen.ReferenceIdeal
import proofs.«112502_g37555194037034_cont_8to1_b_1611_12_alg».proof.Proof.Gen.Pre_finite_inputs
import proofs.«112502_g37555194037034_cont_8to1_b_1611_12_alg».proof.Proof.Gen.ReferenceIdeal.Run
import proofs.«112502_g37555194037034_cont_8to1_b_1611_12_alg».proof.Proof.Gen.ReferenceIdeal.Read
import proofs.«112502_g37555194037034_cont_8to1_b_1611_12_alg».proof.Proof.KernelFr.Frame
import proofs.«112502_g37555194037034_cont_8to1_b_1611_12_alg».proof.Proof.KernelIdealFr.Value
import proofs.«112502_g37555194037034_cont_8to1_b_1611_12_alg».proof.Proof.GcReference
import proofs.«112502_g37555194037034_cont_8to1_b_1611_12_alg».proof.Proof.GcAlgebra
import proofs.«112502_g37555194037034_cont_8to1_b_1611_12_alg».proof.Proof.GcFinite
import Idealize.ShloMosaic.Adequacy
import Idealize.ShloMosaic.Init

noncomputable section

namespace Cert.Proof

open Idealize.ShloMosaic Idealize.ShloMosaic.TcCoe Idealize.SL.Sem

/-- The program as printed runs and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the fused layer of its arguments and the reference's at the
    two-product layer of its arguments; the arguments agree and are finite, so the two are one array. -/
theorem algebraic : Cert.algebraic_KernelIdeal_ReferenceIdeal := by
  intro m ρ m' ρ' hpre hagree
  refine ⟨fun c => Cert.KernelIdeal.Fr.G m c, Cert.KernelIdeal.Fr.value_run m ρ, ?_⟩
  refine (θ_run Cert.ReferenceIdeal.defs _ _).mono (fun _ h c => ⟨(h c).1.trans ?_, (h c).2⟩)
    (Cert.ReferenceIdeal.RefValue.run_twoProducts m' ρ')
  obtain ⟨hV, h1, h2, hW, -⟩ := Cert.GcFinite.allReal_of_pre _ _ _ _ _ (hpre c)
  rw [(hagree c).1, (hagree c).2.1, (hagree c).2.2.1, (hagree c).2.2.2.1, (hagree c).2.2.2.2]
  exact (Cert.GcSpec.fused_eq_twoProducts hV hW h1 h2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
